-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S100000 : Shape := ⟨1, ![100000]⟩
abbrev S128x16 : Shape := ⟨2, ![128, 16]⟩
abbrev S3x128x128 : Shape := ⟨3, ![3, 128, 128]⟩
abbrev S100x128 : Shape := ⟨2, ![100, 128]⟩
abbrev S2x100 : Shape := ⟨2, ![2, 100]⟩
abbrev S2 : Shape := ⟨1, ![2]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S100x128 : S_.BroadcastsInDim S100x128 (![] : Fin 0 → Fin S100x128.rank)
  reducesTo_S100x128_S_d0_1 : S100x128.ReducesTo [0, 1] S_
  bcast_S_S2x100 : S_.BroadcastsInDim S2x100 (![] : Fin 0 → Fin S2x100.rank)
  reducesTo_S2x100_S_d0_1 : S2x100.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S2x100 .f32) (main_arg7 : FVec F S2 .f32) (main_v13 : IVec S_ 1) (main_v16 : IVec S100x128 1) : IVec S_ 1 :=
  let main_c_5 : IVec S_ 1 := constantI S_ 1 1#1
  let main_v17 : IVec S_ 1 := (fun x v => Host.reduce IntOp.andi x v reducesTo_S100x128_S_d0_1 h_S_) main_v16 main_c_5
  let main_v18 : IVec S_ 1 := andi main_v13 main_v17
  let main_v19 : FVec F S2x100 .f32 := Host.absf main_arg6
  let main_cst_6 : FVec F S_ .f32 := constant S_ .f32 0x7F800000#32
  let main_v20 : FVec F S2x100 .f32 := broadcastInDim S2x100 ![] bcast_S_S2x100 main_cst_6
  let main_v21 : IVec S2x100 1 := cmpf .olt main_v19 main_v20
  let main_c_7 : IVec S_ 1 := constantI S_ 1 1#1
  let main_v22 : IVec S_ 1 := (fun x v => Host.reduce IntOp.andi x v reducesTo_S2x100_S_d0_1 h_S_) main_v21 main_c_7
  let main_v23 : IVec S_ 1 := andi main_v18 main_v22
  let main_v24 : FVec F S2 .f32 := Host.absf main_arg7
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S100000x16 .f32) (main_arg1 : IVec S2x1600000 32) (main_arg2 : IVec S100000 32) (main_arg3 : FVec F S128x16 .f32) (main_arg4 : FVec F S3x128x128 .f32) (main_arg5 : FVec F S100x128 .f32) (main_arg6 : FVec F S2x100 .f32) (main_arg7 : FVec F S2 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S100x128 .f32 := Host.absf main_arg5
  let main_cst_4 : FVec F S_ .f32 := constant S_ .f32 0x7F800000#32
  let main_v15 : FVec F S100x128 .f32 := broadcastInDim S100x128 ![] bcast_S_S100x128 main_cst_4
  let main_v16 : IVec S100x128 1 := cmpf .olt main_v14 main_v15
  fn_part1 (F := F) main_arg6 main_arg7 main_v13 main_v16
-- ==== Kernel.lean ====
abbrev S100000x16 : Shape := ⟨2, ![100000, 16]⟩
abbrev S2x1600000 : Shape := ⟨2, ![2, 1600000]⟩
abbrev S100000 : Shape := ⟨1, ![100000]⟩
abbrev S128x16 : Shape := ⟨2, ![128, 16]⟩
abbrev S3x128x128 : Shape := ⟨3, ![3, 128, 128]⟩
abbrev S100x128 : Shape := ⟨2, ![100, 128]⟩
abbrev S2x100 : Shape := ⟨2, ![2, 100]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x16 : Shape := ⟨2, ![10000, 16]⟩
abbrev S10000x128 : Shape := ⟨2, ![10000, 128]⟩
abbrev S16x128 : Shape := ⟨2, ![16, 128]⟩
abbrev S1x128x128 : Shape := ⟨3, ![1, 128, 128]⟩
abbrev S128x128 : Shape := ⟨2, ![128, 128]⟩
abbrev S1700000x128 : Shape := ⟨2, ![1700000, 128]⟩
abbrev S100000x100 : Shape := ⟨2, ![100000, 100]⟩
abbrev S10000x100 : Shape := ⟨2, ![10000, 100]⟩
abbrev S10000 : Shape := ⟨1, ![10000]⟩
abbrev S10000x1 : Shape := ⟨2, ![10000, 1]⟩
abbrev S100 : Shape := ⟨1, ![100]⟩
abbrev S1x100 : Shape := ⟨2, ![1, 100]⟩
abbrev S128x100 : Shape := ⟨2, ![128, 100]⟩
abbrev S1000x100 : Shape := ⟨2, ![1000, 100]⟩
abbrev S100000x1 : Shape := ⟨2, ![100000, 1]⟩
abbrev S1000 : Shape := ⟨1, ![1000]⟩
abbrev S1000x1 : Shape := ⟨2, ![1000, 1]⟩
abbrev S100x2 : Shape := ⟨2, ![100, 2]⟩
abbrev S1000x2 : Shape := ⟨2, ![1000, 2]⟩
abbrev S1x2 : Shape := ⟨2, ![1, 2]⟩

abbrev nBuf : Space → Nat
  | .hbm => 124
  | .vmem => 25
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S100000, .i32⟩
  | .hbm, ⟨3, _⟩ => ⟨S128x16, .f32⟩
  | .hbm, ⟨4, _⟩ => ⟨S3x128x128, .f32⟩
  | .hbm, ⟨5, _⟩ => ⟨S100x128, .f32⟩
  | .hbm, ⟨6, _⟩ => ⟨S2x100, .f32⟩
  | .hbm, ⟨7, _⟩ => ⟨S2, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S1x128x128, .f32⟩
  | .hbm, ⟨46, _⟩ => ⟨S128x128, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128x128, .f32⟩
  | .hbm, ⟨65, _⟩ => ⟨S128x128, .f32⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S1700000x1, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S1x128x128, .f32⟩
  | .hbm, ⟨84, _⟩ => ⟨S128x128, .f32⟩
  | .hbm, ⟨85, _⟩ => ⟨S100000x128, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000x128, .f32⟩
  | .hbm, ⟨95, _⟩ => ⟨S1700000x1, .f32⟩
  | .hbm, ⟨96, _⟩ => ⟨S1700000x128, .f32⟩
  | .hbm, ⟨97, _⟩ => ⟨S1700000x128, .f32⟩
  | .hbm, ⟨98, _⟩ => ⟨S_, .f32⟩
  | .hbm, ⟨99, _⟩ => ⟨S100000x128, .f32⟩
  | .hbm, ⟨100, _⟩ => ⟨S1700000x1, .i32⟩
  | .hbm, ⟨101, _⟩ => ⟨S100000x128, .f32⟩
  | .hbm, ⟨102, _⟩ => ⟨S100000x100, .f32⟩
  | .hbm, ⟨103, _⟩ => ⟨S_, .f32⟩
  | .hbm, ⟨104, _⟩ => ⟨S1000x100, .f32⟩
  | .hbm, ⟨105, _⟩ => ⟨S100000x1, .i32⟩
  | .hbm, ⟨106, _⟩ => ⟨S1000x100, .f32⟩
  | .hbm, ⟨107, _⟩ => ⟨S_, .f32⟩
  | .hbm, ⟨108, _⟩ => ⟨S100000, .f32⟩
  | .hbm, ⟨109, _⟩ => ⟨S_, .f32⟩
  | .hbm, ⟨110, _⟩ => ⟨S1000, .f32⟩
  | .hbm, ⟨111, _⟩ => ⟨S100000x1, .i32⟩
  | .hbm, ⟨112, _⟩ => ⟨S1000, .f32⟩
  | .hbm, ⟨113, _⟩ => ⟨S_, .f32⟩
  | .hbm, ⟨114, _⟩ => ⟨S1000, .f32⟩
  | .hbm, ⟨115, _⟩ => ⟨S1000, .f32⟩
  | .hbm, ⟨116, _⟩ => ⟨S1000x1, .f32⟩
  | .hbm, ⟨117, _⟩ => ⟨S1000x100, .f32⟩
  | .hbm, ⟨118, _⟩ => ⟨S1000x100, .f32⟩
  | .hbm, ⟨119, _⟩ => ⟨S100x2, .f32⟩
  | .hbm, ⟨120, _⟩ => ⟨S1000x2, .f32⟩
  | .hbm, ⟨121, _⟩ => ⟨S1x2, .f32⟩
  | .hbm, ⟨122, _⟩ => ⟨S1000x2, .f32⟩
  | .hbm, ⟨123, _⟩ => ⟨S1000x2, .f32⟩
  | .local _ .vmem, ⟨0, _⟩ => ⟨S10000x16, .f32⟩
  | .local _ .vmem, ⟨1, _⟩ => ⟨S10000x16, .f32⟩
  | .local _ .vmem, ⟨2, _⟩ => ⟨S128x16, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S128x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S100x128, .f32⟩
  | .local _ .vmem, ⟨23, _⟩ => ⟨S10000x100, .f32⟩
  | .local _ .vmem, ⟨24, _⟩ => ⟨S10000x100, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_8 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_11 : Ref sig .tc := ⟨.hbm, 86, rfl⟩
abbrev main_v65 : Ref sig .tc := ⟨.hbm, 87, rfl⟩
abbrev main_v66 : Ref sig .tc := ⟨.hbm, 88, rfl⟩
abbrev main_c_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_13 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_14 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_15 : Ref sig .tc := ⟨.hbm, 107, rfl⟩
abbrev main_v82 : Ref sig .tc := ⟨.hbm, 108, rfl⟩
abbrev main_cst_16 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_17 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S100x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x100 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  transposes_S128x16_p1_0_S16x128 : S128x16.Transposes [1, 0] S16x128
  inb_S10000x128_S10000x128_0_0 : ∀ a, (![0, 0] : Fin 2 → Nat) a + S10000x128.size a ≤ S10000x128.size a
  h_S10000x128 : 0 < S10000x128.numel
  slices_S3x128x128_S1x128x128_0_0_0 : S3x128x128.Slices ![0, 0, 0] S1x128x128
  shapeCasts_S1x128x128_S128x128 : S1x128x128.ShapeCasts S128x128
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128x128_S1x128x128_1_0_0 : S3x128x128.Slices ![1, 0, 0] S1x128x128
  slices_S3x128x128_S1x128x128_2_0_0 : S3x128x128.Slices ![2, 0, 0] S1x128x128
  inb_S100x128_S100x128_0_0 : ∀ a, (![0, 0] : Fin 2 → Nat) a + S100x128.size a ≤ S100x128.size a
  h_S100x128 : 0 < S100x128.numel
  reduces_S10000x128_S10000 : S10000x128.Reduces [1] S10000
  shapeCasts_S10000_S10000x1 : S10000.ShapeCasts S10000x1
  reduces_S100x128_S100 : S100x128.Reduces [1] S100
  shapeCasts_S100_S1x100 : S100.ShapeCasts S1x100
  transposes_S100x128_p1_0_S128x100 : S100x128.Transposes [1, 0] S128x100
  broadcasts_S10000x1_S10000x100 : S10000x1.Broadcasts S10000x100
  broadcasts_S1x100_S10000x100 : S1x100.Broadcasts S10000x100
  inb_S10000x100_S10000x100_0_0 : ∀ a, (![0, 0] : Fin 2 → Nat) a + S10000x100.size a ≤ S10000x100.size a
  h_S10000x100 : 0 < S10000x100.numel
  bcast_S_S1000x100 : S_.BroadcastsInDim S1000x100 (![] : Fin 0 → Fin S1000x100.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x100_0_1 : S1000x1.BroadcastsInDim S1000x100 (![0, 1] : Fin 2 → Fin S1000x100.rank)
  transposes_S2x100_S100x2_1_0 : S2x100.Transposes [1, 0] S100x2
  bcast_S2_S1x2_1 : S2.BroadcastsInDim S1x2 (![1] : Fin 1 → Fin S1x2.rank)
  bcast_S1x2_S1000x2_0_1 : S1x2.BroadcastsInDim S1000x2 (![0, 1] : Fin 2 → Fin S1000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x16_S16x128_S10000x128_1_0_0_1_n_n_wf : DotDims.WF S10000x16 S16x128 S10000x128 [1] [0] [0] [1] [] []
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x100_S10000x100_1_0_0_1_n_n_wf : DotDims.WF S10000x128 S128x100 S10000x100 [1] [0] [0] [1] [] []
  scatter_S1000x100_S100000x1_S100000x100_1_0_0_1_wf : ScatterDims.WF S1000x100 S100000x1 S100000x100 [1] [0] [0] 1
  scatter_S1000_S100000x1_S100000_n_0_0_1_wf : ScatterDims.WF S1000 S100000x1 S100000 [] [0] [0] 1
  dot_S1000x100_S100x2_S1000x2_1_0_0_1_n_n_wf : DotDims.WF S1000x100 S100x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S100x128.size a ≤ S100x128.size a
  hwx4_1 : ∀ i : grid4.Coords, EltTy.bits .f32 = 32 ∨ (Rect.block (s := S100x128) S100x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x100.size a ≤ S100000x100.size a
  hwx4_2 : ∀ i : grid4.Coords, EltTy.bits .f32 = 32 ∨ (Rect.block (s := S100000x100) S10000x100.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x100_S10000x100_1_0_0_1_n_n : DotDims S10000x128 S128x100 S10000x100 where
  lhsContracting := [1]
  rhsContracting := [0]
  lhsNonContracting := [0]
  rhsNonContracting := [1]
  lhsBatch := []
  rhsBatch := []
  wf := dot_S10000x128_S128x100_S10000x100_1_0_0_1_n_n_wf
def scatter_S1000x100_S100000x1_S100000x100_1_0_0_1 : ScatterDims S1000x100 S100000x1 S100000x100 where
  updateWindowDims := [1]
  insertedWindowDims := [0]
  scatterDimsToOperandDims := [0]
  indexVectorDim := 1
  wf := scatter_S1000x100_S100000x1_S100000x100_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x100_S100x2_S1000x2_1_0_0_1_n_n : DotDims S1000x100 S100x2 S1000x2 where
  lhsContracting := [1]
  rhsContracting := [0]
  lhsNonContracting := [0]
  rhsNonContracting := [1]
  lhsBatch := []
  rhsBatch := []
  wf := dot_S1000x100_S100x2_S1000x2_1_0_0_1_n_n_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v77) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S100x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S10000x100.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S100000 : Shape := ⟨1, ![100000]⟩
abbrev S128x16 : Shape := ⟨2, ![128, 16]⟩
abbrev S3x128x128 : Shape := ⟨3, ![3, 128, 128]⟩
abbrev S100x128 : Shape := ⟨2, ![100, 128]⟩
abbrev S2x100 : Shape := ⟨2, ![2, 100]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S16x128 : Shape := ⟨2, ![16, 128]⟩
abbrev S100000x128 : Shape := ⟨2, ![100000, 128]⟩
abbrev S1x128x128 : Shape := ⟨3, ![1, 128, 128]⟩
abbrev S128x128 : Shape := ⟨2, ![128, 128]⟩
abbrev S1700000x128 : Shape := ⟨2, ![1700000, 128]⟩
abbrev S100000x1 : Shape := ⟨2, ![100000, 1]⟩
abbrev S100 : Shape := ⟨1, ![100]⟩
abbrev S1x100 : Shape := ⟨2, ![1, 100]⟩
abbrev S100000x100 : Shape := ⟨2, ![100000, 100]⟩
abbrev S128x100 : Shape := ⟨2, ![128, 100]⟩
abbrev S1000x100 : Shape := ⟨2, ![1000, 100]⟩
abbrev S1000 : Shape := ⟨1, ![1000]⟩
abbrev S1000x1 : Shape := ⟨2, ![1000, 1]⟩
abbrev S100x2 : Shape := ⟨2, ![100, 2]⟩
abbrev S1000x2 : Shape := ⟨2, ![1000, 2]⟩
abbrev S1x2 : Shape := ⟨2, ![1, 2]⟩

abbrev nBuf : Space → Nat
  | .hbm => 198
  | .vmem => 0
  | .smem => 0
  | _ => 0

abbrev hbmTy0_0 (i : Nat) : BufTy := match i % 128 with
  | 0 => ⟨S100000x16, .f32⟩
  | 1 => ⟨S2x1600000, .i32⟩
  | 2 => ⟨S100000, .i32⟩
  | 3 => ⟨S128x16, .f32⟩
  | 4 => ⟨S3x128x128, .f32⟩
  | 5 => ⟨S100x128, .f32⟩
  | 6 => ⟨S2x100, .f32⟩
  | 7 => ⟨S2, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S16x128, .f32⟩
  | 26 => ⟨S100000x128, .f32⟩
  | 27 => ⟨S1x128x128, .f32⟩
  | 28 => ⟨S128x128, .f32⟩
  | 29 => ⟨S128x128, .f32⟩
  | 30 => ⟨S100000x128, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S_, .f32⟩
  | 67 => ⟨S100000x128, .f32⟩
  | 68 => ⟨S100000x128, .f32⟩
  | 69 => ⟨S1x128x128, .f32⟩
  | 70 => ⟨S128x128, .f32⟩
  | 71 => ⟨S128x128, .f32⟩
  | 72 => ⟨S100000x128, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000, .f32⟩
  | 91 => ⟨S1700000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000x128, .f32⟩
  | 101 => ⟨S1700000x1, .f32⟩
  | 102 => ⟨S1700000x128, .f32⟩
  | 103 => ⟨S1700000x128, .f32⟩
  | 104 => ⟨S_, .f32⟩
  | 105 => ⟨S100000x128, .f32⟩
  | 106 => ⟨S1700000x1, .i32⟩
  | 107 => ⟨S100000x128, .f32⟩
  | 108 => ⟨S_, .f32⟩
  | 109 => ⟨S100000x128, .f32⟩
  | 110 => ⟨S100000x128, .f32⟩
  | 111 => ⟨S1x128x128, .f32⟩
  | 112 => ⟨S128x128, .f32⟩
  | 113 => ⟨S128x128, .f32⟩
  | 114 => ⟨S100000x128, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000, .f32⟩
  | 124 => ⟨S_, .i32⟩
  | 125 => ⟨S1700000, .i32⟩
  | 126 => ⟨S1700000, .i1⟩
  | 127 => ⟨S_, .i32⟩
  | _ => ⟨S100000x16, .f32⟩

abbrev hbmTy0_1 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000, .f32⟩
  | 5 => ⟨S1700000, .f32⟩
  | 6 => ⟨S_, .i32⟩
  | 7 => ⟨S1700000, .i32⟩
  | 8 => ⟨S1700000, .i1⟩
  | 9 => ⟨S_, .i32⟩
  | 10 => ⟨S1700000, .i32⟩
  | 11 => ⟨S1700000, .i32⟩
  | 12 => ⟨S1700000, .i32⟩
  | 13 => ⟨S1700000x1, .i32⟩
  | 14 => ⟨S1700000x128, .f32⟩
  | 15 => ⟨S1700000x1, .f32⟩
  | 16 => ⟨S1700000x128, .f32⟩
  | 17 => ⟨S1700000x128, .f32⟩
  | 18 => ⟨S_, .f32⟩
  | 19 => ⟨S100000x128, .f32⟩
  | 20 => ⟨S1700000x1, .i32⟩
  | 21 => ⟨S100000x128, .f32⟩
  | 22 => ⟨S_, .f32⟩
  | 23 => ⟨S100000x128, .f32⟩
  | 24 => ⟨S100000x128, .f32⟩
  | 25 => ⟨S100000x128, .f32⟩
  | 26 => ⟨S_, .f32⟩
  | 27 => ⟨S100000, .f32⟩
  | 28 => ⟨S100000x1, .f32⟩
  | 29 => ⟨S100x128, .f32⟩
  | 30 => ⟨S_, .f32⟩
  | 31 => ⟨S100, .f32⟩
  | 32 => ⟨S1x100, .f32⟩
  | 33 => ⟨S100000x100, .f32⟩
  | 34 => ⟨S100000x100, .f32⟩
  | 35 => ⟨S100000x100, .f32⟩
  | 36 => ⟨S128x100, .f32⟩
  | 37 => ⟨S100000x100, .f32⟩
  | 38 => ⟨S_, .f32⟩
  | 39 => ⟨S100000x100, .f32⟩
  | 40 => ⟨S100000x100, .f32⟩
  | 41 => ⟨S100000x100, .f32⟩
  | 42 => ⟨S_, .f32⟩
  | 43 => ⟨S100000x100, .f32⟩
  | 44 => ⟨S100000x100, .f32⟩
  | 45 => ⟨S_, .f32⟩
  | 46 => ⟨S100000x100, .f32⟩
  | 47 => ⟨S100000x100, .f32⟩
  | 48 => ⟨S100000x100, .f32⟩
  | 49 => ⟨S_, .f32⟩
  | 50 => ⟨S1000x100, .f32⟩
  | 51 => ⟨S100000x1, .i32⟩
  | 52 => ⟨S1000x100, .f32⟩
  | 53 => ⟨S_, .f32⟩
  | 54 => ⟨S100000, .f32⟩
  | 55 => ⟨S_, .f32⟩
  | 56 => ⟨S1000, .f32⟩
  | 57 => ⟨S100000x1, .i32⟩
  | 58 => ⟨S1000, .f32⟩
  | 59 => ⟨S_, .f32⟩
  | 60 => ⟨S1000, .f32⟩
  | 61 => ⟨S1000, .f32⟩
  | 62 => ⟨S1000x1, .f32⟩
  | 63 => ⟨S1000x100, .f32⟩
  | 64 => ⟨S1000x100, .f32⟩
  | 65 => ⟨S100x2, .f32⟩
  | 66 => ⟨S1000x2, .f32⟩
  | 67 => ⟨S1x2, .f32⟩
  | 68 => ⟨S1000x2, .f32⟩
  | 69 => ⟨S1000x2, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_8 : Ref sig .tc := ⟨.hbm, 73, rfl⟩
abbrev main_v53 : Ref sig .tc := ⟨.hbm, 74, rfl⟩
abbrev main_v54 : Ref sig .tc := ⟨.hbm, 75, rfl⟩
abbrev main_c_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_10 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_12 : Ref sig .tc := ⟨.hbm, 92, rfl⟩
abbrev main_v68 : Ref sig .tc := ⟨.hbm, 93, rfl⟩
abbrev main_v69 : Ref sig .tc := ⟨.hbm, 94, rfl⟩
abbrev main_c_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_14 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_call1_cst : Ref sig .tc := ⟨.hbm, 108, rfl⟩
abbrev main_call1_v0 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_15 : Ref sig .tc := ⟨.hbm, 115, rfl⟩
abbrev main_v86 : Ref sig .tc := ⟨.hbm, 116, rfl⟩
abbrev main_v87 : Ref sig .tc := ⟨.hbm, 117, rfl⟩
abbrev main_c_16 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_17 : Ref sig .tc := ⟨.hbm, 124, rfl⟩
abbrev main_v93 : Ref sig .tc := ⟨.hbm, 125, rfl⟩
abbrev main_v94 : Ref sig .tc := ⟨.hbm, 126, rfl⟩
abbrev main_c_18 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_19 : Ref sig .tc := ⟨.hbm, 134, rfl⟩
abbrev main_v101 : Ref sig .tc := ⟨.hbm, 135, rfl⟩
abbrev main_v102 : Ref sig .tc := ⟨.hbm, 136, rfl⟩
abbrev main_c_20 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_21 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_call2_cst : Ref sig .tc := ⟨.hbm, 150, rfl⟩
abbrev main_call2_v0 : Ref sig .tc := ⟨.hbm, 151, rfl⟩
abbrev main_v114 : Ref sig .tc := ⟨.hbm, 152, rfl⟩
abbrev main_v115 : Ref sig .tc := ⟨.hbm, 153, rfl⟩
abbrev main_cst_22 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_23 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_24 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_25 : Ref sig .tc := ⟨.hbm, 170, rfl⟩
abbrev main_v129 : Ref sig .tc := ⟨.hbm, 171, rfl⟩
abbrev main_v130 : Ref sig .tc := ⟨.hbm, 172, rfl⟩
abbrev main_cst_26 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_27 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_cst_28 : Ref sig .tc := ⟨.hbm, 181, rfl⟩
abbrev main_v137 : Ref sig .tc := ⟨.hbm, 182, rfl⟩
abbrev main_cst_29 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_30 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x16_S16x128_1_0 : S128x16.Transposes [1, 0] S16x128
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128x128_S1x128x128_1_0_0 : S3x128x128.Slices ![1, 0, 0] S1x128x128
  slices_S3x128x128_S1x128x128_2_0_0 : S3x128x128.Slices ![2, 0, 0] S1x128x128
  reducesTo_S100000x128_S100000_d1 : S100000x128.ReducesTo [1] S100000
  h_S_ : 0 < S_.numel
  bcast_S100000_S100000x1_0 : S100000.BroadcastsInDim S100000x1 (![0] : Fin 1 → Fin S100000x1.rank)
  reducesTo_S100x128_S100_d1 : S100x128.ReducesTo [1] S100
  bcast_S100_S1x100_1 : S100.BroadcastsInDim S1x100 (![1] : Fin 1 → Fin S1x100.rank)
  bcast_S100000x1_S100000x100_0_1 : S100000x1.BroadcastsInDim S100000x100 (![0, 1] : Fin 2 → Fin S100000x100.rank)
  bcast_S1x100_S100000x100_0_1 : S1x100.BroadcastsInDim S100000x100 (![0, 1] : Fin 2 → Fin S100000x100.rank)
  transposes_S100x128_S128x100_1_0 : S100x128.Transposes [1, 0] S128x100
  bcast_S_S100000x100 : S_.BroadcastsInDim S100000x100 (![] : Fin 0 → Fin S100000x100.rank)
  bcast_S_S1000x100 : S_.BroadcastsInDim S1000x100 (![] : Fin 0 → Fin S1000x100.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x100_0_1 : S1000x1.BroadcastsInDim S1000x100 (![0, 1] : Fin 2 → Fin S1000x100.rank)
  transposes_S2x100_S100x2_1_0 : S2x100.Transposes [1, 0] S100x2
  bcast_S2_S1x2_1 : S2.BroadcastsInDim S1x2 (![1] : Fin 1 → Fin S1x2.rank)
  bcast_S1x2_S1000x2_0_1 : S1x2.BroadcastsInDim S1000x2 (![0, 1] : Fin 2 → Fin S1000x2.rank)
  scatter_S100000_S1700000x1_S1700000_n_0_0_1_wf : ScatterDims.WF S100000 S1700000x1 S1700000 [] [0] [0] 1
  dot_S100000x16_S16x128_S100000x128_1_0_0_1_n_n_wf : DotDims.WF S100000x16 S16x128 S100000x128 [1] [0] [0] [1] [] []
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x100_S100000x100_1_0_0_1_n_n_wf : DotDims.WF S100000x128 S128x100 S100000x100 [1] [0] [0] [1] [] []
  scatter_S1000x100_S100000x1_S100000x100_1_0_0_1_wf : ScatterDims.WF S1000x100 S100000x1 S100000x100 [1] [0] [0] 1
  scatter_S1000_S100000x1_S100000_n_0_0_1_wf : ScatterDims.WF S1000 S100000x1 S100000 [] [0] [0] 1
  dot_S1000x100_S100x2_S1000x2_1_0_0_1_n_n_wf : DotDims.WF S1000x100 S100x2 S1000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x100_S100000x100_1_0_0_1_n_n : DotDims S100000x128 S128x100 S100000x100 where
  lhsContracting := [1]
  rhsContracting := [0]
  lhsNonContracting := [0]
  rhsNonContracting := [1]
  lhsBatch := []
  rhsBatch := []
  wf := dot_S100000x128_S128x100_S100000x100_1_0_0_1_n_n_wf
def scatter_S1000x100_S100000x1_S100000x100_1_0_0_1 : ScatterDims S1000x100 S100000x1 S100000x100 where
  updateWindowDims := [1]
  insertedWindowDims := [0]
  scatterDimsToOperandDims := [0]
  indexVectorDim := 1
  wf := scatter_S1000x100_S100000x1_S100000x100_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x100_S100x2_S1000x2_1_0_0_1_n_n : DotDims S1000x100 S100x2 S1000x2 where
  lhsContracting := [1]
  rhsContracting := [0]
  lhsNonContracting := [0]
  rhsNonContracting := [1]
  lhsBatch := []
  rhsBatch := []
  wf := dot_S1000x100_S100x2_S1000x2_1_0_0_1_n_n_wf

class Facts : Prop extends Facts₀ where

variable [Facts]
-- ==== Proof.ResultRun.lean ====
/-
  The idealized kernel's run with its result named.  The program is five kernel regions among six stretches of host
  operations; the launch theorem for such a chain of segments ends with every unscoped buffer of a core at the contents
  of the last boundary of the chain, and the frame reads the eight argument buffers off that state.  Here the same
  launch is read at one more buffer, the result, so that every weakly fair execution terminates with the result at the
  last boundary's contents and the arguments as launched.
-/
import proofs.«116298_j31293131719247_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement
set_option backward.isDefEq.respectTransparency.types false in
/-- Every weakly fair execution of the idealized kernel terminates without a fault; the result buffer then holds the
    contents of the last segment boundary, and the argument buffers hold what they were launched with. -/
theorem run_result : θ_run defs (onTc (τ := τ) (main (F := F))) ⟨m, fun _ => 0, ρ⟩ (fun r => ∀ c : Dev nD,
      r.2.mem ((c.tc : Thread nD τ).loc main_v95) = W11 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v95 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.ResultRun

end
-- ==== Proof.Dense.lean ====
/-
  The dense stages of the graph network as functions of whole arrays of extended reals, index by index.
  A linear layer multiplies rows of the activations against rows of the weight matrix (the weight enters
  transposed): out[r, c] = ∑ₖ h[r, k] · w[c, k].  The rectifier is the pointwise maximum with the float word zero.
  The centroid stage is out[r, c] = √(max(‖h[r]‖² + ‖cen[c]‖² − 2 · ⟨h[r], cen[c]⟩, 0) + ε) with the squared norms
  and the inner product written as sums over the 128 features.
-/
import Idealize.ShloMosaic.PureOps.Ideal
import Idealize.ShloMosaic.PureOps.Ideal.Laws
import Idealize.ShloMosaic.Lib.ValueIdx

noncomputable section

namespace Cert.GraphNet

open Idealize.ShloMosaic Idealize.ShloMosaic.ValueIdx

/-- A rank-2 array of extended reals with literal extents. -/
abbrev Mat (r c : Nat) : Type := (⟨2, ![r, c]⟩ : Shape).Idx → EReal

/-- The float word zero at the ideal instance, kept as its word (both programs spell this same word). -/
abbrev zeroW : EReal := Ideal.ofBits .f32 0x00000000#32

/-- The embedding layer: rows of the node features against rows of the embedding matrix, 16 features. -/
def rowsDot16 (x : Mat 100000 16) (w : Mat 128 16) : Mat 100000 128 :=
  fun i => ∑ k : Fin 16, x (ix2 (i 0) k) * w (ix2 (i 1) k)

/-- A convolution layer's weight product: rows of the activations against rows of the weight, 128 features. -/
def rowsDot128 (h : Mat 100000 128) (w : Mat 128 128) : Mat 100000 128 :=
  fun i => ∑ k : Fin 128, h (ix2 (i 0) k) * w (ix2 (i 1) k)

/-- The rectifier: the pointwise maximum with zero. -/
def relu (h : Mat 100000 128) : Mat 100000 128 := fun i => max (h i) zeroW

/-- Euclidean distances of every node's activation row to every centroid row, by
    ‖a − b‖² = ‖a‖² + ‖b‖² − 2⟨a, b⟩, clamped at zero, shifted by ε and rooted. -/
def centroidDist (h : Mat 100000 128) (cen : Mat 100 128) : Mat 100000 100 := fun i =>
  Ideal.sqrt (max (((∑ k : Fin 128, h (ix2 (i 0) k) * h (ix2 (i 0) k))
        + (∑ k : Fin 128, cen (ix2 (i 1) k) * cen (ix2 (i 1) k)))
      - Ideal.ofBits .f32 0x40000000#32 * (∑ k : Fin 128, h (ix2 (i 0) k) * cen (ix2 (i 1) k))) zeroW
    + Ideal.ofBits .f32 0x2B8CBCCC#32)

end Cert.GraphNet

end
-- ==== Proof.Payload.lean ====
/-
  What each kernel body stores, read at an index of its output block.  At the ideal instance a change of float
  format is the identity, a transposed weight block read at (k, c) is the weight at (c, k), and a block product into
  a zero accumulator is the plain sum over the contracted axis.  So the four linear bodies store
  ∑ₖ a[r, k] · w[c, k] (with a the loaded rows, rectified first in the later layers), and the centroid body stores
  √(max(∑ₖ a[r,k]² + ∑ₖ cen[c,k]² − 2 · ∑ₖ a[r,k] · cen[c,k], 0) + ε) with a the rectified rows.
-/
import proofs.«116298_j31293131719247_1_alg».proof.Proof.Gen.KernelIdeal.Skeleton
import proofs.«116298_j31293131719247_1_alg».proof.Proof.Dense
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.GraphNet

/-! ## The three block products as sums -/

theorem matmul16_apply_l0 (i : S10000x128.Idx) (q : dot_S10000x16_S16x128_S10000x128_1_0_0_1_n_n.contr.Idx) : (dot_S10000x16_S16x128_S10000x128_1_0_0_1_n_n.lhsIdx i q 0).val = (i 0).val := by
  unfold DotDims.lhsIdx
  rw [dif_neg (show ¬(0 : Fin S10000x16.rank) ∈ dot_S10000x16_S16x128_S10000x128_1_0_0_1_n_n.lhsBatch by decide), dif_pos (show (0 : Fin S10000x16.rank) ∈ dot_S10000x16_S16x128_S10000x128_1_0_0_1_n_n.lhsNonContracting by decide)]
  rfl
theorem matmul16_apply_r1 (i : S10000x128.Idx) (q : dot_S10000x16_S16x128_S10000x128_1_0_0_1_n_n.contr.Idx) : (dot_S10000x16_S16x128_S10000x128_1_0_0_1_n_n.rhsIdx i q 1).val = (i 1).val := by
  unfold DotDims.rhsIdx
  rw [dif_neg (show ¬(1 : Fin S16x128.rank) ∈ dot_S10000x16_S16x128_S10000x128_1_0_0_1_n_n.rhsBatch by decide), dif_pos (show (1 : Fin S16x128.rank) ∈ dot_S10000x16_S16x128_S10000x128_1_0_0_1_n_n.rhsNonContracting by decide)]
  rfl

/-- The block product into a zero accumulator, contraction over 16, read at an index: a plain sum. -/
theorem matmul16_apply (l : FVec Ideal S10000x16 .bf16) (r : FVec Ideal S16x128 .bf16) (p : Fin 10000) (q : Fin 128) :
    matmul dot_S10000x16_S16x128_S10000x128_1_0_0_1_n_n none l r (constant S10000x128 .f32 0x00000000#32) (ix2 p q)
      = ∑ k : Fin 16, l (ix2 p k) * r (ix2 k q) := by
  refine (Ideal.matmul_constant_zero_apply dot_S10000x16_S16x128_S10000x128_1_0_0_1_n_n none l r (ix2 p q)).trans ?_
  rw [← Equiv.sum_comp (contrEquiv1 dot_S10000x16_S16x128_S10000x128_1_0_0_1_n_n 16 rfl rfl).symm]
  refine Finset.sum_congr rfl fun k _ => ?_
  have hk := contrEquiv1_symm_val dot_S10000x16_S16x128_S10000x128_1_0_0_1_n_n 16 rfl rfl k
  have el : dot_S10000x16_S16x128_S10000x128_1_0_0_1_n_n.lhsIdx (ix2 p q) ((contrEquiv1 dot_S10000x16_S16x128_S10000x128_1_0_0_1_n_n 16 rfl rfl).symm k) = ix2 p k := funext fun a => Fin.ext (by
    match a with
    | ⟨0, _⟩ => exact matmul16_apply_l0 _ _
    | ⟨1, _⟩ => exact (dot_S10000x16_S16x128_S10000x128_1_0_0_1_n_n.lhsIdx_val_of_single rfl _ _).trans hk)
  have er : dot_S10000x16_S16x128_S10000x128_1_0_0_1_n_n.rhsIdx (ix2 p q) ((contrEquiv1 dot_S10000x16_S16x128_S10000x128_1_0_0_1_n_n 16 rfl rfl).symm k) = ix2 k q := funext fun a => Fin.ext (by
    match a with
    | ⟨0, _⟩ => exact (dot_S10000x16_S16x128_S10000x128_1_0_0_1_n_n.rhsIdx_val_of_single rfl _ _).trans hk
    | ⟨1, _⟩ => exact matmul16_apply_r1 _ _)
  rw [el, er]

theorem matmul128_apply_l0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem matmul128_apply_r1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block product into a zero accumulator, contraction over 128, read at an index: a plain sum. -/
theorem matmul128_apply (l : FVec Ideal S10000x128 .bf16) (r : FVec Ideal S128x128 .bf16) (p : Fin 10000) (q : Fin 128) :
    matmul dot_S10000x128_S128x128_S10000x128_1_0_0_1_n_n none l r (constant S10000x128 .f32 0x00000000#32) (ix2 p q)
      = ∑ k : Fin 128, l (ix2 p k) * r (ix2 k q) := by
  refine (Ideal.matmul_constant_zero_apply dot_S10000x128_S128x128_S10000x128_1_0_0_1_n_n none l r (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact matmul128_apply_l0 _ _
    | ⟨1, _⟩ => exact (dot_S10000x128_S128x128_S10000x128_1_0_0_1_n_n.lhsIdx_val_of_single rfl _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (dot_S10000x128_S128x128_S10000x128_1_0_0_1_n_n.rhsIdx_val_of_single rfl _ _).trans hk
    | ⟨1, _⟩ => exact matmul128_apply_r1 _ _)
  rw [el, er]

theorem matmul100_apply_l0 (i : S10000x100.Idx) (q : dot_S10000x128_S128x100_S10000x100_1_0_0_1_n_n.contr.Idx) : (dot_S10000x128_S128x100_S10000x100_1_0_0_1_n_n.lhsIdx i q 0).val = (i 0).val := by
  unfold DotDims.lhsIdx
  rw [dif_neg (show ¬(0 : Fin S10000x128.rank) ∈ dot_S10000x128_S128x100_S10000x100_1_0_0_1_n_n.lhsBatch by decide), dif_pos (show (0 : Fin S10000x128.rank) ∈ dot_S10000x128_S128x100_S10000x100_1_0_0_1_n_n.lhsNonContracting by decide)]
  rfl
theorem matmul100_apply_r1 (i : S10000x100.Idx) (q : dot_S10000x128_S128x100_S10000x100_1_0_0_1_n_n.contr.Idx) : (dot_S10000x128_S128x100_S10000x100_1_0_0_1_n_n.rhsIdx i q 1).val = (i 1).val := by
  unfold DotDims.rhsIdx
  rw [dif_neg (show ¬(1 : Fin S128x100.rank) ∈ dot_S10000x128_S128x100_S10000x100_1_0_0_1_n_n.rhsBatch by decide), dif_pos (show (1 : Fin S128x100.rank) ∈ dot_S10000x128_S128x100_S10000x100_1_0_0_1_n_n.rhsNonContracting by decide)]
  rfl

/-- The block product into a zero accumulator, contraction over 128, read at an index: a plain sum. -/
theorem matmul100_apply (l : FVec Ideal S10000x128 .bf16) (r : FVec Ideal S128x100 .bf16) (p : Fin 10000) (q : Fin 100) :
    matmul dot_S10000x128_S128x100_S10000x100_1_0_0_1_n_n none l r (constant S10000x100 .f32 0x00000000#32) (ix2 p q)
      = ∑ k : Fin 128, l (ix2 p k) * r (ix2 k q) := by
  refine (Ideal.matmul_constant_zero_apply dot_S10000x128_S128x100_S10000x100_1_0_0_1_n_n none l r (ix2 p q)).trans ?_
  rw [← Equiv.sum_comp (contrEquiv1 dot_S10000x128_S128x100_S10000x100_1_0_0_1_n_n 128 rfl rfl).symm]
  refine Finset.sum_congr rfl fun k _ => ?_
  have hk := contrEquiv1_symm_val dot_S10000x128_S128x100_S10000x100_1_0_0_1_n_n 128 rfl rfl k
  have el : dot_S10000x128_S128x100_S10000x100_1_0_0_1_n_n.lhsIdx (ix2 p q) ((contrEquiv1 dot_S10000x128_S128x100_S10000x100_1_0_0_1_n_n 128 rfl rfl).symm k) = ix2 p k := funext fun a => Fin.ext (by
    match a with
    | ⟨0, _⟩ => exact matmul100_apply_l0 _ _
    | ⟨1, _⟩ => exact (dot_S10000x128_S128x100_S10000x100_1_0_0_1_n_n.lhsIdx_val_of_single rfl _ _).trans hk)
  have er : dot_S10000x128_S128x100_S10000x100_1_0_0_1_n_n.rhsIdx (ix2 p q) ((contrEquiv1 dot_S10000x128_S128x100_S10000x100_1_0_0_1_n_n 128 rfl rfl).symm k) = ix2 k q := funext fun a => Fin.ext (by
    match a with
    | ⟨0, _⟩ => exact (dot_S10000x128_S128x100_S10000x100_1_0_0_1_n_n.rhsIdx_val_of_single rfl _ _).trans hk
    | ⟨1, _⟩ => exact matmul100_apply_r1 _ _)
  rw [el, er]

/-! ## The linear bodies -/

/-- The embedding body at (r, c): the loaded feature rows against the loaded embedding rows. -/
theorem embed_apply (x0 : Vec Ideal S10000x16 .f32) (x1 : Vec Ideal S128x16 .f32) (p : Fin 10000) (q : Fin 128) :
    k0_pay1 x0 x1 (ix2 p q) = ∑ k : Fin 16, x0 (ix2 p k) * x1 (ix2 q k) := by
  unfold k0_pay1
  refine (matmul16_apply _ _ p q).trans (Finset.sum_congr rfl fun k _ => ?_)
  refine congrArg (x0 (ix2 p k) * ·) ?_
  exact transpose_apply [1, 0] _ transposes_S128x16_p1_0_S16x128 (ix2 k q) (ix2 q k) (fun b => match b with
    | ⟨0, _⟩ => rfl
    | ⟨1, _⟩ => rfl)

/-- The first convolution layer's body at (r, c): no rectifier on the read. -/
theorem conv1_apply (x0 : Vec Ideal S10000x128 .f32) (x1 : Vec Ideal S128x128 .f32) (p : Fin 10000) (q : Fin 128) :
    k1_pay1 x0 x1 (ix2 p q) = ∑ k : Fin 128, x0 (ix2 p k) * x1 (ix2 q k) := by
  unfold k1_pay1
  refine (matmul128_apply _ _ p q).trans (Finset.sum_congr rfl fun k _ => ?_)
  rw [shapeCast_self, shapeCast_self]
  refine congrArg (x0 (ix2 p k) * ·) ?_
  exact transpose_apply [1, 0] _ transposes_S128x128_p1_0_S128x128 (ix2 k q) (ix2 q k) (fun b => match b with
    | ⟨0, _⟩ => rfl
    | ⟨1, _⟩ => rfl)

/-- The second convolution layer's body at (r, c): the loaded rows are rectified first. -/
theorem conv2_apply (x0 : Vec Ideal S10000x128 .f32) (x1 : Vec Ideal S128x128 .f32) (p : Fin 10000) (q : Fin 128) :
    k2_pay1 x0 x1 (ix2 p q) = ∑ k : Fin 128, max (x0 (ix2 p k)) zeroW * x1 (ix2 q k) := by
  unfold k2_pay1
  refine (matmul128_apply _ _ p q).trans (Finset.sum_congr rfl fun k _ => ?_)
  rw [shapeCast_self, shapeCast_self]
  refine congrArg (max (x0 (ix2 p k)) zeroW * ·) ?_
  exact transpose_apply [1, 0] _ transposes_S128x128_p1_0_S128x128 (ix2 k q) (ix2 q k) (fun b => match b with
    | ⟨0, _⟩ => rfl
    | ⟨1, _⟩ => rfl)

/-- The third convolution layer's body at (r, c): the same as the second's. -/
theorem conv3_apply (x0 : Vec Ideal S10000x128 .f32) (x1 : Vec Ideal S128x128 .f32) (p : Fin 10000) (q : Fin 128) :
    k3_pay1 x0 x1 (ix2 p q) = ∑ k : Fin 128, max (x0 (ix2 p k)) zeroW * x1 (ix2 q k) := by
  unfold k3_pay1
  refine (matmul128_apply _ _ p q).trans (Finset.sum_congr rfl fun k _ => ?_)
  rw [shapeCast_self, shapeCast_self]
  refine congrArg (max (x0 (ix2 p k)) zeroW * ·) ?_
  exact transpose_apply [1, 0] _ transposes_S128x128_p1_0_S128x128 (ix2 k q) (ix2 q k) (fun b => match b with
    | ⟨0, _⟩ => rfl
    | ⟨1, _⟩ => rfl)

end Cert.KernelIdeal.Body

end
-- ==== Proof.EmbedRegion.lean ====
/-
  The embedding region.  Its grid has ten points; point t loads rows 10000·t … 10000·t + 9999 of the node features and the
  whole embedding matrix, and writes back rows 10000·t … of the output.  An output row depends only on the same row of the
  features, so the ten blocks written back are the ten row blocks of ONE array, the features' rows against the embedding
  matrix's rows, and together they cover it.
-/
import proofs.«116298_j31293131719247_1_alg».proof.Proof.Gen.KernelIdeal.Frame
import proofs.«116298_j31293131719247_1_alg».proof.Proof.Payload
import Idealize.ShloMosaic.Lib.Pipeline.Value

set_option maxRecDepth 16384

noncomputable section

namespace Cert.KernelIdeal.EmbedRegion

open Cert.KernelIdeal Cert.KernelIdeal.Gen Cert.KernelIdeal.Body Cert.GraphNet
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the node rows move with the grid point, the embedding block is always block 0, and
    the output block is the grid point's. -/
theorem block_indices : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks is some grid point's. -/
theorem block_onto : ∀ (b : Fin 10), ∃ t : Fin cfg0.N, win0_2.index t = ![b.val, 0] :=
  (by decide +kernel : ∀ (b : Fin 10), ∃ t : Fin grid0.N, win0_2.index t = ![b.val, 0])

/-- What grid point `t` writes back is block `t` of the node features' rows against the embedding matrix's rows. -/
theorem flushed_eq (c : Dev nD) (t : Fin cfg0.N) :
    (dat0 V c).flushed 2 t = ((cfg0.win 2).blk t).view.read (Elt Ideal) (rowsDot16 (V c main_arg0) (V c main_arg3)) := by
  show (cfg0.win 2).cut (grid0.coords t) ((dat0 V c).after 2 t) = _
  rw [after0_2]
  unfold out0_2
  rw [View.canon_unit_zero zero_offsets]
  simp only [View.ld_unit_zero (S := S10000x16) zero_offsets, View.ld_unit_zero (S := S128x16) zero_offsets]
  obtain ⟨e0, e1, e2, e3, e4, e5⟩ := block_indices t
  funext j
  obtain ⟨p, q, rfl⟩ : ∃ (p : Fin 10000) (q : Fin 128), j = ix2 p q := ⟨j 0, j 1, eq_ix2 j⟩
  refine (embed_apply (iblk0 V c 0 t) (iblk0 V c 1 t) p q).trans ?_
  -- a node block's row p is row (block index · 10000 + p) of the array; the embedding block is the whole array
  have rows : ∀ k : Fin 16, iblk0 V c 0 t (ix2 p k)
      = V c main_arg0 (ix2 ((((cfg0.win 2).blk t).view.emb (ix2 p q)) 0) k) := fun k => by
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 16 + 1 * k.val = k.val; omega
  have cols : ∀ k : Fin 16, iblk0 V c 1 t (ix2 q k)
      = V c main_arg3 (ix2 ((((cfg0.win 2).blk t).view.emb (ix2 p q)) 1) k) := fun k => by
    show V c main_arg3 (((cfg0.win 1).blk t).view.emb (ix2 q k)) = _
    refine congrArg (V c main_arg3) (funext fun a => Fin.ext ?_)
    match a with
    | ⟨0, _⟩ => show win0_1.index t (0 : Fin 2) * 128 + 1 * q.val = win0_2.index t (1 : Fin 2) * 128 + 1 * q.val; omega
    | ⟨1, _⟩ => show win0_1.index t (1 : Fin 2) * 16 + 1 * k.val = k.val; omega
  simp only [rows, cols]
  rfl

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v29).slice (win0_2.rect t)).set ↔ _
  rw [View.set_slice_whole, Rect.mem_set_unit]
  exact Iff.rfl

/-- The ten row blocks cover the output array: row r lies in block r / 10000. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region: the node features' rows against the embedding matrix's rows, whatever the contents at entry. -/
theorem array_eq (c : Dev nD) : (dat0 V c).arrAt 2 cfg0.N = rowsDot16 (V c main_arg0) (V c main_arg3) :=
  (dat0 V c).arrAt_eq_of_cover 2 _ (fun t _ => flushed_eq V c t) covered

end Cert.KernelIdeal.EmbedRegion

end
-- ==== Proof.Conv1Region.lean ====
/-
  The first convolution layer's weight product.  Ten grid points; point t loads rows 10000·t … of the embedded activations
  and the whole first weight, and writes back the same rows of the output: the ten blocks are the row blocks of ONE array,
  the activations' rows against the weight's rows (no rectifier: the embedding has none after it), and they cover it.
-/
import proofs.«116298_j31293131719247_1_alg».proof.Proof.Gen.KernelIdeal.Frame
import proofs.«116298_j31293131719247_1_alg».proof.Proof.Payload
import Idealize.ShloMosaic.Lib.Pipeline.Value

set_option maxRecDepth 16384

noncomputable section

namespace Cert.KernelIdeal.Conv1Region

open Cert.KernelIdeal Cert.KernelIdeal.Gen Cert.KernelIdeal.Body Cert.GraphNet
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the node rows move with the grid point, the weight block is always block 0, and
    the output block is the grid point's. -/
theorem block_indices : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every one of the ten row blocks is some grid point's. -/
theorem block_onto : ∀ (b : Fin 10), ∃ t : Fin cfg1.N, win1_2.index t = ![b.val, 0] :=
  (by decide +kernel : ∀ (b : Fin 10), ∃ t : Fin grid1.N, win1_2.index t = ![b.val, 0])

/-- What grid point `t` writes back is block `t` of the activations' rows against the first weight's rows. -/
theorem flushed_eq (c : Dev nD) (t : Fin cfg1.N) :
    (dat1 V c).flushed 2 t = ((cfg1.win 2).blk t).view.read (Elt Ideal) (rowsDot128 (V c main_v29) (V c main_v31)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S128x128) zero_offsets]
  obtain ⟨e0, e1, e2, e3, e4, e5⟩ := block_indices t
  funext j
  obtain ⟨p, q, rfl⟩ : ∃ (p : Fin 10000) (q : Fin 128), j = ix2 p q := ⟨j 0, j 1, eq_ix2 j⟩
  refine (conv1_apply (iblk1 V c 0 t) (iblk1 V c 1 t) p q).trans ?_
  -- a node block's row p is row (block index · 10000 + p) of the array; the weight block is the whole array
  have rows : ∀ k : Fin 128, iblk1 V c 0 t (ix2 p k)
      = V c main_v29 (ix2 ((((cfg1.win 2).blk t).view.emb (ix2 p q)) 0) k) := fun k => by
    show V c main_v29 (((cfg1.win 0).blk t).view.emb (ix2 p k)) = _
    refine congrArg (V c main_v29) (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * k.val = k.val; omega
  have cols : ∀ k : Fin 128, iblk1 V c 1 t (ix2 q k)
      = V c main_v31 (ix2 ((((cfg1.win 2).blk t).view.emb (ix2 p q)) 1) k) := fun k => by
    show V c main_v31 (((cfg1.win 1).blk t).view.emb (ix2 q k)) = _
    refine congrArg (V c main_v31) (funext fun a => Fin.ext ?_)
    match a with
    | ⟨0, _⟩ => show win1_1.index t (0 : Fin 2) * 128 + 1 * q.val = win1_2.index t (1 : Fin 2) * 128 + 1 * q.val; omega
    | ⟨1, _⟩ => show win1_1.index t (1 : Fin 2) * 128 + 1 * k.val = k.val; omega
  simp only [rows, cols]
  rfl

/-- An index of the output array is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v32).slice (win1_2.rect t)).set ↔ _
  rw [View.set_slice_whole, Rect.mem_set_unit]
  exact Iff.rfl

/-- The ten row blocks cover the output array: row r lies in block r / 10000. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := block_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The output array after the region: the activations' rows against the first weight's rows, whatever the contents at entry. -/
theorem array_eq (c : Dev nD) : (dat1 V c).arrAt 2 cfg1.N = rowsDot128 (V c main_v29) (V c main_v31) :=
  (dat1 V c).arrAt_eq_of_cover 2 _ (fun t _ => flushed_eq V c t) covered

end Cert.KernelIdeal.Conv1Region

end
-- ==== Proof.Conv2Region.lean ====
/-
  The second convolution layer's weight product.  Ten grid points; point t loads rows 10000·t … of the first layer's
  aggregated activations, rectifies them on the read, loads the whole second weight, and writes back the same rows of the
  output: the ten blocks are the row blocks of ONE array, the rectified activations' rows against the weight's rows.
-/
import proofs.«116298_j31293131719247_1_alg».proof.Proof.Gen.KernelIdeal.Frame
import proofs.«116298_j31293131719247_1_alg».proof.Proof.Payload
import Idealize.ShloMosaic.Lib.Pipeline.Value

set_option maxRecDepth 16384

noncomputable section

namespace Cert.KernelIdeal.Conv2Region

open Cert.KernelIdeal Cert.KernelIdeal.Gen Cert.KernelIdeal.Body Cert.GraphNet
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the node rows move with the grid point, the weight block is always block 0, and
    the output block is the grid point's. -/
theorem block_indices : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten row blocks is some grid point's. -/
theorem block_onto : ∀ (b : Fin 10), ∃ t : Fin cfg2.N, win2_2.index t = ![b.val, 0] :=
  (by decide +kernel : ∀ (b : Fin 10), ∃ t : Fin grid2.N, win2_2.index t = ![b.val, 0])

/-- What grid point `t` writes back is block `t` of the rectified aggregated activations' rows against the second weight's rows. -/
theorem flushed_eq (c : Dev nD) (t : Fin cfg2.N) :
    (dat2 V c).flushed 2 t = ((cfg2.win 2).blk t).view.read (Elt Ideal) (rowsDot128 (relu (V c main_v45)) (V c main_v47)) := by
  show (cfg2.win 2).cut (grid2.coords t) ((dat2 V c).after 2 t) = _
  rw [after2_2]
  unfold out2_2
  rw [View.canon_unit_zero zero_offsets]
  simp only [View.ld_unit_zero (S := S10000x128) zero_offsets, View.ld_unit_zero (S := S128x128) zero_offsets]
  obtain ⟨e0, e1, e2, e3, e4, e5⟩ := block_indices t
  funext j
  obtain ⟨p, q, rfl⟩ : ∃ (p : Fin 10000) (q : Fin 128), j = ix2 p q := ⟨j 0, j 1, eq_ix2 j⟩
  refine (conv2_apply (iblk2 V c 0 t) (iblk2 V c 1 t) p q).trans ?_
  -- a node block's row p is row (block index · 10000 + p) of the array; the weight block is the whole array
  have rows : ∀ k : Fin 128, iblk2 V c 0 t (ix2 p k)
      = V c main_v45 (ix2 ((((cfg2.win 2).blk t).view.emb (ix2 p q)) 0) k) := fun k => by
    show V c main_v45 (((cfg2.win 0).blk t).view.emb (ix2 p k)) = _
    refine congrArg (V c main_v45) (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * k.val = k.val; omega
  have cols : ∀ k : Fin 128, iblk2 V c 1 t (ix2 q k)
      = V c main_v47 (ix2 ((((cfg2.win 2).blk t).view.emb (ix2 p q)) 1) k) := fun k => by
    show V c main_v47 (((cfg2.win 1).blk t).view.emb (ix2 q k)) = _
    refine congrArg (V c main_v47) (funext fun a => Fin.ext ?_)
    match a with
    | ⟨0, _⟩ => show win2_1.index t (0 : Fin 2) * 128 + 1 * q.val = win2_2.index t (1 : Fin 2) * 128 + 1 * q.val; omega
    | ⟨1, _⟩ => show win2_1.index t (1 : Fin 2) * 128 + 1 * k.val = k.val; omega
  simp only [rows, cols]
  rfl

/-- An index of the output array is in point `t`'s block iff each coordinate is in the block's range on its axis. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v48).slice (win2_2.rect t)).set ↔ _
  rw [View.set_slice_whole, Rect.mem_set_unit]
  exact Iff.rfl

/-- The ten row blocks cover the output array: row r lies in block r / 10000. -/
theorem covered (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := block_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The output array after the region: the rectified aggregated activations' rows against the second weight's rows, whatever the contents at entry. -/
theorem array_eq (c : Dev nD) : (dat2 V c).arrAt 2 cfg2.N = rowsDot128 (relu (V c main_v45)) (V c main_v47) :=
  (dat2 V c).arrAt_eq_of_cover 2 _ (fun t _ => flushed_eq V c t) covered

end Cert.KernelIdeal.Conv2Region

end
-- ==== Proof.Conv3Region.lean ====
/-
  The third convolution layer's weight product.  Ten grid points; point t loads rows 10000·t … of the second layer's
  aggregated activations, rectifies them on the read, loads the whole third weight, and writes back the same rows of the
  output: the ten blocks are the row blocks of ONE array, the rectified activations' rows against the weight's rows.
-/
import proofs.«116298_j31293131719247_1_alg».proof.Proof.Gen.KernelIdeal.Frame
import proofs.«116298_j31293131719247_1_alg».proof.Proof.Payload
import Idealize.ShloMosaic.Lib.Pipeline.Value

set_option maxRecDepth 16384

noncomputable section

namespace Cert.KernelIdeal.Conv3Region

open Cert.KernelIdeal Cert.KernelIdeal.Gen Cert.KernelIdeal.Body Cert.GraphNet
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the node rows move with the grid point, the weight block is always block 0, and
    the output block is the grid point's. -/
theorem block_indices : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every one of the ten row blocks is some grid point's. -/
theorem block_onto : ∀ (b : Fin 10), ∃ t : Fin cfg3.N, win3_2.index t = ![b.val, 0] :=
  (by decide +kernel : ∀ (b : Fin 10), ∃ t : Fin grid3.N, win3_2.index t = ![b.val, 0])

/-- What grid point `t` writes back is block `t` of the rectified aggregated activations' rows against the third weight's rows. -/
theorem flushed_eq (c : Dev nD) (t : Fin cfg3.N) :
    (dat3 V c).flushed 2 t = ((cfg3.win 2).blk t).view.read (Elt Ideal) (rowsDot128 (relu (V c main_v61)) (V c main_v63)) := by
  show (cfg3.win 2).cut (grid3.coords t) ((dat3 V c).after 2 t) = _
  rw [after3_2]
  unfold out3_2
  rw [View.canon_unit_zero zero_offsets]
  simp only [View.ld_unit_zero (S := S10000x128) zero_offsets, View.ld_unit_zero (S := S128x128) zero_offsets]
  obtain ⟨e0, e1, e2, e3, e4, e5⟩ := block_indices t
  funext j
  obtain ⟨p, q, rfl⟩ : ∃ (p : Fin 10000) (q : Fin 128), j = ix2 p q := ⟨j 0, j 1, eq_ix2 j⟩
  refine (conv3_apply (iblk3 V c 0 t) (iblk3 V c 1 t) p q).trans ?_
  -- a node block's row p is row (block index · 10000 + p) of the array; the weight block is the whole array
  have rows : ∀ k : Fin 128, iblk3 V c 0 t (ix2 p k)
      = V c main_v61 (ix2 ((((cfg3.win 2).blk t).view.emb (ix2 p q)) 0) k) := fun k => by
    show V c main_v61 (((cfg3.win 0).blk t).view.emb (ix2 p k)) = _
    refine congrArg (V c main_v61) (funext fun a => Fin.ext ?_)
    match a with
    | ⟨0, _⟩ => show win3_0.index t (0 : Fin 2) * 10000 + 1 * p.val = win3_2.index t (0 : Fin 2) * 10000 + 1 * p.val; omega
    | ⟨1, _⟩ => show win3_0.index t (1 : Fin 2) * 128 + 1 * k.val = k.val; omega
  have cols : ∀ k : Fin 128, iblk3 V c 1 t (ix2 q k)
      = V c main_v63 (ix2 ((((cfg3.win 2).blk t).view.emb (ix2 p q)) 1) k) := fun k => by
    show V c main_v63 (((cfg3.win 1).blk t).view.emb (ix2 q k)) = _
    refine congrArg (V c main_v63) (funext fun a => Fin.ext ?_)
    match a with
    | ⟨0, _⟩ => show win3_1.index t (0 : Fin 2) * 128 + 1 * q.val = win3_2.index t (1 : Fin 2) * 128 + 1 * q.val; omega
    | ⟨1, _⟩ => show win3_1.index t (1 : Fin 2) * 128 + 1 * k.val = k.val; omega
  simp only [rows, cols]
  rfl

/-- An index of the output array is in point `t`'s block iff each coordinate is in the block's range on its axis. -/
theorem mem_blk (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v64).slice (win3_2.rect t)).set ↔ _
  rw [View.set_slice_whole, Rect.mem_set_unit]
  exact Iff.rfl

/-- The ten row blocks cover the output array: row r lies in block r / 10000. -/
theorem covered (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := block_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- The output array after the region: the rectified aggregated activations' rows against the third weight's rows, whatever the contents at entry. -/
theorem array_eq (c : Dev nD) : (dat3 V c).arrAt 2 cfg3.N = rowsDot128 (relu (V c main_v61)) (V c main_v63) :=
  (dat3 V c).arrAt_eq_of_cover 2 _ (fun t _ => flushed_eq V c t) covered

end Cert.KernelIdeal.Conv3Region

end
-- ==== Proof.LibColumn.lean ====
/-
  Two layout operations read at an index, for a vector kept as a column: the reshape of an [a] array to an
  [a, 1] column, and the broadcast of an [a, 1] column over b columns.  (The row forms [a] → [1, a] and
  [1, b] → [a, b] are in the library; a sum with keepdims along the last axis produces the column forms.)
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to a column `[a, 1]` reads, at `(i, u)`, the operand at `i`, whatever the unit coordinate `u`:
    both positions have the same row-major rank. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.Centroid.lean ====
/-
  The centroid body at an index of its output block.  With a the loaded activation rows after the rectifier and cen
  the loaded centroid rows, the body stores at (r, c)
      √( max( (∑ₖ a[r,k]·a[r,k] + ∑ₖ cen[c,k]·cen[c,k]) − 2 · ∑ₖ a[r,k]·cen[c,k], 0 ) + ε ):
  the row sums of squares are lane sums kept as a column (for the nodes) and as a row (for the centroids) and spread
  over the block, the inner products are the block product against the transposed centroids, and every other
  operation is pointwise.
-/
import proofs.«116298_j31293131719247_1_alg».proof.Proof.Payload
import proofs.«116298_j31293131719247_1_alg».proof.Proof.LibColumn

noncomputable section

namespace Cert.KernelIdeal.Body

open Cert.KernelIdeal Cert.KernelIdeal.Gen Idealize.ShloMosaic Idealize.ShloMosaic.ValueIdx Cert.GraphNet
open Idealize.ShloMosaic.ColumnLayout

/-- A node block's row sums, kept as a column and spread over the 100 centroid columns, read at (r, c). -/
theorem rowSums_apply (v : FVec Ideal S10000x128 .f32) (p : Fin 10000) (q : Fin 100) :
    broadcastTo S10000x100 (shapeCast S10000x1 (multiReduction .add [1] S10000 v 0x00000000#32 reduces_S10000x128_S10000 (.inl rfl) rfl)
        shapeCasts_S10000_S10000x1) broadcasts_S10000x1_S10000x100 (ix2 p q)
      = ∑ k : Fin 128, v (ix2 p k) := by
  refine (broadcastTo_a1_ab_apply _ broadcasts_S10000x1_S10000x100 p q).trans ?_
  refine (shapeCast_a_a1_apply _ shapeCasts_S10000_S10000x1 p (0 : Fin 1)).trans ?_
  refine (Ideal.multiReduction_add_single v 0x00000000#32 reduces_S10000x128_S10000 (.inl rfl) rfl (ix1 p)).trans ?_
  exact Finset.sum_congr rfl fun k _ => congrArg v (funext fun a => Fin.ext (by
    match a with
    | ⟨0, _⟩ => rfl
    | ⟨1, _⟩ => rfl))

/-- The centroid block's row sums, kept as a row and spread over the 10000 node rows, read at (r, c). -/
theorem centroidSums_apply (v : FVec Ideal S100x128 .f32) (p : Fin 10000) (q : Fin 100) :
    broadcastTo S10000x100 (shapeCast S1x100 (multiReduction .add [1] S100 v 0x00000000#32 reduces_S100x128_S100 (.inl rfl) rfl)
        shapeCasts_S100_S1x100) broadcasts_S1x100_S10000x100 (ix2 p q)
      = ∑ k : Fin 128, v (ix2 q k) := by
  refine (broadcastTo_1b_ab_apply _ broadcasts_S1x100_S10000x100 p q).trans ?_
  refine (shapeCast_a_1a_apply _ shapeCasts_S100_S1x100 (0 : Fin 1) q).trans ?_
  refine (Ideal.multiReduction_add_single v 0x00000000#32 reduces_S100x128_S100 (.inl rfl) rfl (ix1 q)).trans ?_
  exact Finset.sum_congr rfl fun k _ => congrArg v (funext fun a => Fin.ext (by
    match a with
    | ⟨0, _⟩ => rfl
    | ⟨1, _⟩ => rfl))

/-- The distance formula is a function of its three sums. -/
theorem dist_congr {a a' b b' c c' : EReal} (ha : a = a') (hb : b = b') (hc : c = c') :
    Ideal.sqrt (max ((a + b) - Ideal.ofBits .f32 0x40000000#32 * c) zeroW + Ideal.ofBits .f32 0x2B8CBCCC#32)
      = Ideal.sqrt (max ((a' + b') - Ideal.ofBits .f32 0x40000000#32 * c') zeroW + Ideal.ofBits .f32 0x2B8CBCCC#32) := by
  rw [ha, hb, hc]

/-- The centroid body at (r, c). -/
theorem dist_apply (x0 : Vec Ideal S10000x128 .f32) (x1 : Vec Ideal S100x128 .f32) (p : Fin 10000) (q : Fin 100) :
    k4_pay1 x0 x1 (ix2 p q)
      = Ideal.sqrt (max (((∑ k : Fin 128, max (x0 (ix2 p k)) zeroW * max (x0 (ix2 p k)) zeroW)
            + (∑ k : Fin 128, x1 (ix2 q k) * x1 (ix2 q k)))
          - Ideal.ofBits .f32 0x40000000#32 * (∑ k : Fin 128, max (x0 (ix2 p k)) zeroW * x1 (ix2 q k))) zeroW
        + Ideal.ofBits .f32 0x2B8CBCCC#32) := by
  unfold k4_pay1
  rw [shapeCast_self]
  refine dist_congr ((rowSums_apply _ p q).trans rfl) ((centroidSums_apply _ p q).trans rfl) ?_
  refine (matmul100_apply _ _ p q).trans (Finset.sum_congr rfl fun k _ => ?_)
  refine congrArg (max (x0 (ix2 p k)) zeroW * ·) ?_
  exact transpose_apply [1, 0] _ transposes_S100x128_p1_0_S128x100 (ix2 k q) (ix2 q k) (fun b => match b with
    | ⟨0, _⟩ => rfl
    | ⟨1, _⟩ => rfl)

end Cert.KernelIdeal.Body

end
-- ==== Proof.CentroidRegion.lean ====
/-
  The centroid region.  Ten grid points; point t loads rows 10000·t … of the last layer's aggregated activations, rectifies
  them on the read, loads all the centroids, and writes back the same rows of the distance array: the ten blocks are the
  row blocks of ONE array, the distances of every rectified activation row to every centroid row.
-/
import proofs.«116298_j31293131719247_1_alg».proof.Proof.Gen.KernelIdeal.Frame
import proofs.«116298_j31293131719247_1_alg».proof.Proof.Centroid
import Idealize.ShloMosaic.Lib.Pipeline.Value

set_option maxRecDepth 16384

noncomputable section

namespace Cert.KernelIdeal.CentroidRegion

open Cert.KernelIdeal Cert.KernelIdeal.Gen Cert.KernelIdeal.Body Cert.GraphNet
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the node rows move with the grid point, the centroid block is always block 0, and
    the output block is the grid point's. -/
theorem block_indices : ∀ t : Fin cfg4.N,
    win4_0.index t (0 : Fin 2) = win4_2.index t (0 : Fin 2) ∧ win4_0.index t (1 : Fin 2) = 0
    ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every one of the ten row blocks is some grid point's. -/
theorem block_onto : ∀ (b : Fin 10), ∃ t : Fin cfg4.N, win4_2.index t = ![b.val, 0] :=
  (by decide +kernel : ∀ (b : Fin 10), ∃ t : Fin grid4.N, win4_2.index t = ![b.val, 0])

/-- What grid point `t` writes back is block `t` of the distances of the rectified last-layer activations' rows to the centroid rows. -/
theorem flushed_eq (c : Dev nD) (t : Fin cfg4.N) :
    (dat4 V c).flushed 2 t = ((cfg4.win 2).blk t).view.read (Elt Ideal) (centroidDist (relu (V c main_v77)) (V c main_arg5)) := by
  show (cfg4.win 2).cut (grid4.coords t) ((dat4 V c).after 2 t) = _
  rw [after4_2]
  unfold out4_2
  rw [View.canon_unit_zero zero_offsets]
  simp only [View.ld_unit_zero (S := S10000x128) zero_offsets, View.ld_unit_zero (S := S100x128) zero_offsets]
  obtain ⟨e0, e1, e2, e3, e4, e5⟩ := block_indices t
  funext j
  obtain ⟨p, q, rfl⟩ : ∃ (p : Fin 10000) (q : Fin 100), j = ix2 p q := ⟨j 0, j 1, eq_ix2 j⟩
  refine (dist_apply (iblk4 V c 0 t) (iblk4 V c 1 t) p q).trans ?_
  -- a node block's row p is row (block index · 10000 + p) of the array; the centroid block is the whole array
  have rows : ∀ k : Fin 128, iblk4 V c 0 t (ix2 p k)
      = V c main_v77 (ix2 ((((cfg4.win 2).blk t).view.emb (ix2 p q)) 0) k) := fun k => by
    show V c main_v77 (((cfg4.win 0).blk t).view.emb (ix2 p k)) = _
    refine congrArg (V c main_v77) (funext fun a => Fin.ext ?_)
    match a with
    | ⟨0, _⟩ => show win4_0.index t (0 : Fin 2) * 10000 + 1 * p.val = win4_2.index t (0 : Fin 2) * 10000 + 1 * p.val; omega
    | ⟨1, _⟩ => show win4_0.index t (1 : Fin 2) * 128 + 1 * k.val = k.val; omega
  have cols : ∀ k : Fin 128, iblk4 V c 1 t (ix2 q k)
      = V c main_arg5 (ix2 ((((cfg4.win 2).blk t).view.emb (ix2 p q)) 1) k) := fun k => by
    show V c main_arg5 (((cfg4.win 1).blk t).view.emb (ix2 q k)) = _
    refine congrArg (V c main_arg5) (funext fun a => Fin.ext ?_)
    match a with
    | ⟨0, _⟩ => show win4_1.index t (0 : Fin 2) * 100 + 1 * q.val = win4_2.index t (1 : Fin 2) * 100 + 1 * q.val; omega
    | ⟨1, _⟩ => show win4_1.index t (1 : Fin 2) * 128 + 1 * k.val = k.val; omega
  simp only [rows, cols]
  rfl

/-- An index of the output array is in point `t`'s block iff each coordinate is in the block's range on its axis. -/
theorem mem_blk (t : Fin cfg4.N) (i : S100000x100.Idx) :
    i ∈ ((cfg4.win 2).blk t).view.set ↔ ∀ a : Fin 2, win4_2.index t a * S10000x100.size a ≤ (i a).val ∧ (i a).val < win4_2.index t a * S10000x100.size a + S10000x100.size a := by
  show i ∈ ((View.whole main_v78).slice (win4_2.rect t)).set ↔ _
  rw [View.set_slice_whole, Rect.mem_set_unit]
  exact Iff.rfl

/-- The ten row blocks cover the output array: row r lies in block r / 10000. -/
theorem covered (i : S100000x100.Idx) : ∃ t : Fin cfg4.N, (cfg4.win 2).flush t = true ∧ i ∈ ((cfg4.win 2).blk t).view.set := by
  have hi0 : (i 0).val < 100000 := (i 0).isLt
  have hi1 : (i 1).val < 100 := (i 1).isLt
  obtain ⟨t, ht⟩ := block_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 100 ≤ (i 1).val ∧ (i 1).val < win4_2.index t (1 : Fin 2) * 100 + 100; omega

/-- The output array after the region: the distances of the rectified last-layer activations' rows to the centroid rows, whatever the contents at entry. -/
theorem array_eq (c : Dev nD) : (dat4 V c).arrAt 2 cfg4.N = centroidDist (relu (V c main_v77)) (V c main_arg5) :=
  (dat4 V c).arrAt_eq_of_cover 2 _ (fun t _ => flushed_eq V c t) covered

end Cert.KernelIdeal.CentroidRegion

end
-- ==== Proof.RefStages.lean ====
/-
  The reference's dense stages as the same functions of whole arrays.  Each of its matrix products contracts the
  activations' feature axis with the feature axis of a transposed weight, so at (r, c) it is ∑ₖ h[r, k] · w[c, k]; its
  rectifier is the pointwise maximum with a zero splat; and its centroid stage computes the squared row norms as sums
  from a zero initial value, the inner products as such a product, and the rest pointwise.
-/
import proofs.«116298_j31293131719247_1_alg».proof.Proof.Gen.ReferenceIdeal.Read
import proofs.«116298_j31293131719247_1_alg».proof.Proof.Dense

set_option maxRecDepth 16384

noncomputable section

namespace Cert.ReferenceIdeal.Stages

open Cert.ReferenceIdeal Cert.ReferenceIdeal.Read Cert.GraphNet
open Idealize.ShloMosaic Idealize.ShloMosaic.ValueIdx

/-- The embedding product is the node features' rows against the embedding matrix's rows. -/
theorem embed_eq (x0 : (⟨S100000x16, .f32⟩ : BufTy).Contents (Elt Ideal)) (x3 : (⟨S128x16, .f32⟩ : BufTy).Contents (Elt Ideal)) :
    val_main_v15 (F := Ideal) x0 x3 = rowsDot16 x0 x3 := by
  funext i
  rw [val_main_v15_apply]
  unfold rowsDot16
  refine Finset.sum_congr rfl fun k _ => ?_
  rw [val_main_v14_apply]
  have e1 : lidx_main_v15 i k = ix2 (i 0) k := funext fun a => Fin.ext (by
    match a with
    | ⟨0, _⟩ => rfl
    | ⟨1, _⟩ => rfl)
  have e2 : idx_main_v14 (ridx_main_v15 i k) = ix2 (i 1) k := funext fun a => Fin.ext (by
    match a with
    | ⟨0, _⟩ => rfl
    | ⟨1, _⟩ => rfl)
  rw [e1, e2]
  rfl

/-- The first layer's weight product: the embedded activations' rows against the first weight's rows. -/
theorem conv1_eq (x0 : (⟨S100000x16, .f32⟩ : BufTy).Contents (Elt Ideal)) (x3 : (⟨S128x16, .f32⟩ : BufTy).Contents (Elt Ideal)) (x4 : (⟨S3x128x128, .f32⟩ : BufTy).Contents (Elt Ideal)) :
    val_main_v19 (F := Ideal) x0 x3 x4 = rowsDot128 (val_main_v15 (F := Ideal) x0 x3) (val_main_v17 (F := Ideal) x4) := by
  funext i
  rw [val_main_v19_apply]
  unfold rowsDot128
  refine Finset.sum_congr rfl fun k _ => ?_
  rw [val_main_v18_apply]
  have e1 : lidx_main_v19 i k = ix2 (i 0) k := funext fun a => Fin.ext (by
    match a with
    | ⟨0, _⟩ => rfl
    | ⟨1, _⟩ => rfl)
  have e2 : idx_main_v18 (ridx_main_v19 i k) = ix2 (i 1) k := funext fun a => Fin.ext (by
    match a with
    | ⟨0, _⟩ => rfl
    | ⟨1, _⟩ => rfl)
  rw [e1, e2]
  rfl

/-- The second layer's weight product: the rectified first aggregation's rows against the second weight's rows. -/
theorem conv2_eq (x0 : (⟨S100000x16, .f32⟩ : BufTy).Contents (Elt Ideal)) (x1 : (⟨S2x1600000, .i32⟩ : BufTy).Contents (Elt Ideal)) (x3 : (⟨S128x16, .f32⟩ : BufTy).Contents (Elt Ideal)) (x4 : (⟨S3x128x128, .f32⟩ : BufTy).Contents (Elt Ideal)) :
    val_main_v52 (F := Ideal) x0 x1 x3 x4 = rowsDot128 (relu (val_main_v47 (F := Ideal) x0 x1 x3 x4)) (val_main_v50 (F := Ideal) x4) := by
  funext i
  rw [val_main_v52_apply]
  unfold rowsDot128 relu
  refine Finset.sum_congr rfl fun k _ => ?_
  rw [val_main_v51_apply, val_main_v48_apply, val_main_call0_v0_apply, val_main_call0_cst_apply]
  have e1 : lidx_main_v52 i k = ix2 (i 0) k := funext fun a => Fin.ext (by
    match a with
    | ⟨0, _⟩ => rfl
    | ⟨1, _⟩ => rfl)
  have e2 : idx_main_v51 (ridx_main_v52 i k) = ix2 (i 1) k := funext fun a => Fin.ext (by
    match a with
    | ⟨0, _⟩ => rfl
    | ⟨1, _⟩ => rfl)
  rw [e1, e2]
  rfl

/-- The third layer's weight product: the rectified second aggregation's rows against the third weight's rows. -/
theorem conv3_eq (x0 : (⟨S100000x16, .f32⟩ : BufTy).Contents (Elt Ideal)) (x1 : (⟨S2x1600000, .i32⟩ : BufTy).Contents (Elt Ideal)) (x3 : (⟨S128x16, .f32⟩ : BufTy).Contents (Elt Ideal)) (x4 : (⟨S3x128x128, .f32⟩ : BufTy).Contents (Elt Ideal)) :
    val_main_v85 (F := Ideal) x0 x1 x3 x4 = rowsDot128 (relu (val_main_v80 (F := Ideal) x0 x1 x3 x4)) (val_main_v83 (F := Ideal) x4) := by
  funext i
  rw [val_main_v85_apply]
  unfold rowsDot128 relu
  refine Finset.sum_congr rfl fun k _ => ?_
  rw [val_main_v84_apply, val_main_v81_apply, val_main_call1_v0_apply, val_main_call1_cst_apply]
  have e1 : lidx_main_v85 i k = ix2 (i 0) k := funext fun a => Fin.ext (by
    match a with
    | ⟨0, _⟩ => rfl
    | ⟨1, _⟩ => rfl)
  have e2 : idx_main_v84 (ridx_main_v85 i k) = ix2 (i 1) k := funext fun a => Fin.ext (by
    match a with
    | ⟨0, _⟩ => rfl
    | ⟨1, _⟩ => rfl)
  rw [e1, e2]
  rfl

/-- The reference's squared node norms, spread over the centroid columns, read at an index: the sum of the squared
    rectified activations of the index's row (the sum's zero initial value drops out). -/
theorem nodeNorms_apply (x0 : (⟨S100000x16, .f32⟩ : BufTy).Contents (Elt Ideal)) (x1 : (⟨S2x1600000, .i32⟩ : BufTy).Contents (Elt Ideal)) (x3 : (⟨S128x16, .f32⟩ : BufTy).Contents (Elt Ideal)) (x4 : (⟨S3x128x128, .f32⟩ : BufTy).Contents (Elt Ideal)) (i : S100000x100.Idx) :
    val_main_v121 (F := Ideal) x0 x1 x3 x4 i
      = ∑ k : Fin 128, max (val_main_v113 (F := Ideal) x0 x1 x3 x4 (ix2 (i 0) k)) zeroW * max (val_main_v113 (F := Ideal) x0 x1 x3 x4 (ix2 (i 0) k)) zeroW := by
  rw [val_main_v121_apply, val_main_v117_apply, val_main_v116_apply, val_main_cst_22_apply, Ideal.ofBits_def,
    Ideal.ofBits_zero_f32, zero_add]
  refine Finset.sum_congr rfl fun k _ => ?_
  rw [val_main_v115_apply, val_main_v114_apply, val_main_call2_v0_apply, val_main_call2_cst_apply]
  have r1 : idx_main_v116 (idx_main_v117 (idx_main_v121 i)) k = ix2 (i 0) k := funext fun a => Fin.ext (by
    match a with
    | ⟨0, _⟩ => rfl
    | ⟨1, _⟩ => rfl)
  rw [r1]
  rfl

/-- The reference's squared centroid norms, spread over the node rows, read at an index. -/
theorem centroidNorms_apply (x5 : (⟨S100x128, .f32⟩ : BufTy).Contents (Elt Ideal)) (i : S100000x100.Idx) :
    val_main_v122 (F := Ideal) x5 i = ∑ k : Fin 128, x5 (ix2 (i 1) k) * x5 (ix2 (i 1) k) := by
  rw [val_main_v122_apply, val_main_v120_apply, val_main_v119_apply, val_main_cst_23_apply, Ideal.ofBits_def,
    Ideal.ofBits_zero_f32, zero_add]
  refine Finset.sum_congr rfl fun k _ => ?_
  rw [val_main_v118_apply]
  have r2 : idx_main_v119 (idx_main_v120 (idx_main_v122 i)) k = ix2 (i 1) k := funext fun a => Fin.ext (by
    match a with
    | ⟨0, _⟩ => rfl
    | ⟨1, _⟩ => rfl)
  rw [r2]
  rfl

/-- The reference's inner products of rectified activation rows with centroid rows, read at an index. -/
theorem inner_apply (x0 : (⟨S100000x16, .f32⟩ : BufTy).Contents (Elt Ideal)) (x1 : (⟨S2x1600000, .i32⟩ : BufTy).Contents (Elt Ideal)) (x3 : (⟨S128x16, .f32⟩ : BufTy).Contents (Elt Ideal)) (x4 : (⟨S3x128x128, .f32⟩ : BufTy).Contents (Elt Ideal)) (x5 : (⟨S100x128, .f32⟩ : BufTy).Contents (Elt Ideal)) (i : S100000x100.Idx) :
    val_main_v125 (F := Ideal) x0 x1 x3 x4 x5 i
      = ∑ k : Fin 128, max (val_main_v113 (F := Ideal) x0 x1 x3 x4 (ix2 (i 0) k)) zeroW * x5 (ix2 (i 1) k) := by
  rw [val_main_v125_apply]
  refine Finset.sum_congr rfl fun k _ => ?_
  rw [val_main_v124_apply, val_main_v114_apply, val_main_call2_v0_apply, val_main_call2_cst_apply]
  have r3 : lidx_main_v125 i k = ix2 (i 0) k := funext fun a => Fin.ext (by
    match a with
    | ⟨0, _⟩ => rfl
    | ⟨1, _⟩ => rfl)
  have r4 : idx_main_v124 (ridx_main_v125 i k) = ix2 (i 1) k := funext fun a => Fin.ext (by
    match a with
    | ⟨0, _⟩ => rfl
    | ⟨1, _⟩ => rfl)
  rw [r3, r4]
  rfl

/-- The pointwise shell of the distance formula, in the host operations' spelling, over its three sums. -/
theorem dist_of_parts (s1 s2 s3 : EReal) :
    FloatOps.hostUnary (F := Ideal) (φ := .f32) .sqrt (FloatOps.addf (FloatOps.maximumf (FloatOps.subf (FloatOps.addf s1 s2)
        (FloatOps.mulf (FloatOps.ofBits (F := Ideal) .f32 0x40000000#32) s3)) (FloatOps.ofBits (F := Ideal) .f32 0x00000000#32))
        (FloatOps.ofBits (F := Ideal) .f32 0x2B8CBCCC#32))
      = Ideal.sqrt (max ((s1 + s2) - Ideal.ofBits .f32 0x40000000#32 * s3) zeroW + Ideal.ofBits .f32 0x2B8CBCCC#32) := by
  simp only [Ideal.ofBits_def, Ideal.hostUnary_sqrt_def, Ideal.addf_def, Ideal.maximumf_def, Ideal.subf_def, Ideal.mulf_def]

set_option maxHeartbeats 400000 in
/-- The centroid stage: the distances of the rectified last aggregation's rows to the centroid rows. -/
theorem dist_eq (x0 : (⟨S100000x16, .f32⟩ : BufTy).Contents (Elt Ideal)) (x1 : (⟨S2x1600000, .i32⟩ : BufTy).Contents (Elt Ideal)) (x3 : (⟨S128x16, .f32⟩ : BufTy).Contents (Elt Ideal)) (x4 : (⟨S3x128x128, .f32⟩ : BufTy).Contents (Elt Ideal)) (x5 : (⟨S100x128, .f32⟩ : BufTy).Contents (Elt Ideal)) :
    val_main_v133 (F := Ideal) x0 x1 x3 x4 x5 = centroidDist (relu (val_main_v113 (F := Ideal) x0 x1 x3 x4)) x5 := by
  funext i
  rw [val_main_v133_apply, val_main_v132_apply, val_main_v130_apply, val_main_v128_apply, val_main_v123_apply,
    val_main_v127_apply, nodeNorms_apply, centroidNorms_apply, inner_apply, val_main_v126_apply, val_main_cst_24_apply,
    val_main_v129_apply, val_main_cst_25_apply, val_main_v131_apply, val_main_cst_26_apply]
  exact dist_of_parts _ _ _

end Cert.ReferenceIdeal.Stages

end
-- ==== Proof.Fold.lean ====
/-
  The idealized kernel's result as the reference's function of the arguments.  The run ends with the result buffer at
  the contents of the last of eleven segment boundaries; this module walks those boundaries forward.  A stretch of host
  operations is read off as its operations' composed term; a region leaves its output array at the dense stage's
  function of the arrays it read (the region modules) and every other buffer as it was.  The edge lists, the
  normalisation coefficients and the arguments are carried unchanged from the first boundary to where they are read.
  At every boundary the live activation array is identified with the reference's value at the same stage: the host
  stretches are the same operations on both sides, and the dense stages agree by the two sides' stage lemmas.
-/
import proofs.«116298_j31293131719247_1_alg».proof.Proof.Gen.KernelIdeal.Frame
import proofs.«116298_j31293131719247_1_alg».proof.Proof.Gen.ReferenceIdeal.Read
import proofs.«116298_j31293131719247_1_alg».proof.Proof.EmbedRegion
import proofs.«116298_j31293131719247_1_alg».proof.Proof.Conv1Region
import proofs.«116298_j31293131719247_1_alg».proof.Proof.Conv2Region
import proofs.«116298_j31293131719247_1_alg».proof.Proof.Conv3Region
import proofs.«116298_j31293131719247_1_alg».proof.Proof.CentroidRegion
import proofs.«116298_j31293131719247_1_alg».proof.Proof.RefStages
import Idealize.ShloMosaic.Lib.StableHlo.Run

set_option maxRecDepth 16384

noncomputable section

namespace Cert.KernelIdeal.Fold

open Cert.KernelIdeal Cert.KernelIdeal.Gen Cert.GraphNet
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The first boundary: the arguments, the edge lists and the coefficients -/

theorem entry_arg0 : W1 m ρ c (Proc.devRef .tc main_arg0) = (m ((c : Thread nD τ).loc main_arg0)) := by
  dsimp only [W1, hostOps0]
  after_results_simp

theorem entry_arg2 : W1 m ρ c (Proc.devRef .tc main_arg2) = (m ((c : Thread nD τ).loc main_arg2)) := by
  dsimp only [W1, hostOps0]
  after_results_simp

theorem entry_arg3 : W1 m ρ c (Proc.devRef .tc main_arg3) = (m ((c : Thread nD τ).loc main_arg3)) := by
  dsimp only [W1, hostOps0]
  after_results_simp

theorem entry_arg4 : W1 m ρ c (Proc.devRef .tc main_arg4) = (m ((c : Thread nD τ).loc main_arg4)) := by
  dsimp only [W1, hostOps0]
  after_results_simp

theorem entry_arg5 : W1 m ρ c (Proc.devRef .tc main_arg5) = (m ((c : Thread nD τ).loc main_arg5)) := by
  dsimp only [W1, hostOps0]
  after_results_simp

theorem entry_arg6 : W1 m ρ c (Proc.devRef .tc main_arg6) = (m ((c : Thread nD τ).loc main_arg6)) := by
  dsimp only [W1, hostOps0]
  after_results_simp

theorem entry_arg7 : W1 m ρ c (Proc.devRef .tc main_arg7) = (m ((c : Thread nD τ).loc main_arg7)) := by
  dsimp only [W1, hostOps0]
  after_results_simp

/-- The source list with the self loops appended. -/
theorem entry_src : W1 m ρ c (Proc.devRef .tc main_v5) = Cert.ReferenceIdeal.Read.val_main_v5 (F := Ideal) (m ((c : Thread nD τ).loc main_arg1)) := by
  dsimp only [W1, hostOps0]
  after_results_simp
  rfl

/-- The destination list with the self loops appended. -/
theorem entry_dst : W1 m ρ c (Proc.devRef .tc main_v6) = Cert.ReferenceIdeal.Read.val_main_v6 (F := Ideal) (m ((c : Thread nD τ).loc main_arg1)) := by
  dsimp only [W1, hostOps0]
  after_results_simp
  rfl

/-- The per-edge normalisation coefficients (the kernel computes them once, the reference once per layer). -/
theorem entry_coef : W1 m ρ c (Proc.devRef .tc main_v28) = Cert.ReferenceIdeal.Read.val_main_v34 (F := Ideal) (m ((c : Thread nD τ).loc main_arg1)) := by
  dsimp only [W1, hostOps0]
  after_results_simp
  rfl

/-! ## What is carried unchanged to the boundary where it is read -/

theorem keep4_v5 : W4 m ρ c (Proc.devRef .tc main_v5) = W2 m ρ c (Proc.devRef .tc main_v5) := by
  rw [W4_of_ne m ρ c main_v5 (by decide)]
  dsimp only [W3, hostOps1]
  after_results_simp
theorem live4_v5 : W4 m ρ c (Proc.devRef .tc main_v5) = Cert.ReferenceIdeal.Read.val_main_v5 (F := Ideal) (m ((c : Thread nD τ).loc main_arg1)) :=
  (keep4_v5 m ρ c).trans ((W2_of_ne m ρ c main_v5 (by decide)).trans (entry_src m ρ c))

theorem keep4_v6 : W4 m ρ c (Proc.devRef .tc main_v6) = W2 m ρ c (Proc.devRef .tc main_v6) := by
  rw [W4_of_ne m ρ c main_v6 (by decide)]
  dsimp only [W3, hostOps1]
  after_results_simp
theorem live4_v6 : W4 m ρ c (Proc.devRef .tc main_v6) = Cert.ReferenceIdeal.Read.val_main_v6 (F := Ideal) (m ((c : Thread nD τ).loc main_arg1)) :=
  (keep4_v6 m ρ c).trans ((W2_of_ne m ρ c main_v6 (by decide)).trans (entry_dst m ρ c))

theorem keep4_v28 : W4 m ρ c (Proc.devRef .tc main_v28) = W2 m ρ c (Proc.devRef .tc main_v28) := by
  rw [W4_of_ne m ρ c main_v28 (by decide)]
  dsimp only [W3, hostOps1]
  after_results_simp
theorem live4_v28 : W4 m ρ c (Proc.devRef .tc main_v28) = Cert.ReferenceIdeal.Read.val_main_v34 (F := Ideal) (m ((c : Thread nD τ).loc main_arg1)) :=
  (keep4_v28 m ρ c).trans ((W2_of_ne m ρ c main_v28 (by decide)).trans (entry_coef m ρ c))

theorem keep6_v5 : W6 m ρ c (Proc.devRef .tc main_v5) = W2 m ρ c (Proc.devRef .tc main_v5) := by
  rw [W6_of_ne m ρ c main_v5 (by decide)]
  dsimp only [W5, hostOps2]
  after_results_simp
  rw [W4_of_ne m ρ c main_v5 (by decide)]
  dsimp only [W3, hostOps1]
  after_results_simp
theorem live6_v5 : W6 m ρ c (Proc.devRef .tc main_v5) = Cert.ReferenceIdeal.Read.val_main_v5 (F := Ideal) (m ((c : Thread nD τ).loc main_arg1)) :=
  (keep6_v5 m ρ c).trans ((W2_of_ne m ρ c main_v5 (by decide)).trans (entry_src m ρ c))

theorem keep6_v6 : W6 m ρ c (Proc.devRef .tc main_v6) = W2 m ρ c (Proc.devRef .tc main_v6) := by
  rw [W6_of_ne m ρ c main_v6 (by decide)]
  dsimp only [W5, hostOps2]
  after_results_simp
  rw [W4_of_ne m ρ c main_v6 (by decide)]
  dsimp only [W3, hostOps1]
  after_results_simp
theorem live6_v6 : W6 m ρ c (Proc.devRef .tc main_v6) = Cert.ReferenceIdeal.Read.val_main_v6 (F := Ideal) (m ((c : Thread nD τ).loc main_arg1)) :=
  (keep6_v6 m ρ c).trans ((W2_of_ne m ρ c main_v6 (by decide)).trans (entry_dst m ρ c))

theorem keep6_v28 : W6 m ρ c (Proc.devRef .tc main_v28) = W2 m ρ c (Proc.devRef .tc main_v28) := by
  rw [W6_of_ne m ρ c main_v28 (by decide)]
  dsimp only [W5, hostOps2]
  after_results_simp
  rw [W4_of_ne m ρ c main_v28 (by decide)]
  dsimp only [W3, hostOps1]
  after_results_simp
theorem live6_v28 : W6 m ρ c (Proc.devRef .tc main_v28) = Cert.ReferenceIdeal.Read.val_main_v34 (F := Ideal) (m ((c : Thread nD τ).loc main_arg1)) :=
  (keep6_v28 m ρ c).trans ((W2_of_ne m ρ c main_v28 (by decide)).trans (entry_coef m ρ c))

theorem keep8_v5 : W8 m ρ c (Proc.devRef .tc main_v5) = W2 m ρ c (Proc.devRef .tc main_v5) := by
  rw [W8_of_ne m ρ c main_v5 (by decide)]
  dsimp only [W7, hostOps3]
  after_results_simp
  rw [W6_of_ne m ρ c main_v5 (by decide)]
  dsimp only [W5, hostOps2]
  after_results_simp
  rw [W4_of_ne m ρ c main_v5 (by decide)]
  dsimp only [W3, hostOps1]
  after_results_simp
theorem live8_v5 : W8 m ρ c (Proc.devRef .tc main_v5) = Cert.ReferenceIdeal.Read.val_main_v5 (F := Ideal) (m ((c : Thread nD τ).loc main_arg1)) :=
  (keep8_v5 m ρ c).trans ((W2_of_ne m ρ c main_v5 (by decide)).trans (entry_src m ρ c))

theorem keep8_v6 : W8 m ρ c (Proc.devRef .tc main_v6) = W2 m ρ c (Proc.devRef .tc main_v6) := by
  rw [W8_of_ne m ρ c main_v6 (by decide)]
  dsimp only [W7, hostOps3]
  after_results_simp
  rw [W6_of_ne m ρ c main_v6 (by decide)]
  dsimp only [W5, hostOps2]
  after_results_simp
  rw [W4_of_ne m ρ c main_v6 (by decide)]
  dsimp only [W3, hostOps1]
  after_results_simp
theorem live8_v6 : W8 m ρ c (Proc.devRef .tc main_v6) = Cert.ReferenceIdeal.Read.val_main_v6 (F := Ideal) (m ((c : Thread nD τ).loc main_arg1)) :=
  (keep8_v6 m ρ c).trans ((W2_of_ne m ρ c main_v6 (by decide)).trans (entry_dst m ρ c))

theorem keep8_v28 : W8 m ρ c (Proc.devRef .tc main_v28) = W2 m ρ c (Proc.devRef .tc main_v28) := by
  rw [W8_of_ne m ρ c main_v28 (by decide)]
  dsimp only [W7, hostOps3]
  after_results_simp
  rw [W6_of_ne m ρ c main_v28 (by decide)]
  dsimp only [W5, hostOps2]
  after_results_simp
  rw [W4_of_ne m ρ c main_v28 (by decide)]
  dsimp only [W3, hostOps1]
  after_results_simp
theorem live8_v28 : W8 m ρ c (Proc.devRef .tc main_v28) = Cert.ReferenceIdeal.Read.val_main_v34 (F := Ideal) (m ((c : Thread nD τ).loc main_arg1)) :=
  (keep8_v28 m ρ c).trans ((W2_of_ne m ρ c main_v28 (by decide)).trans (entry_coef m ρ c))

theorem live2_arg4 : W2 m ρ c (Proc.devRef .tc main_arg4) = (m ((c : Thread nD τ).loc main_arg4)) :=
  (W2_of_ne m ρ c main_arg4 (by decide)).trans (entry_arg4 m ρ c)

theorem keep4_arg4 : W4 m ρ c (Proc.devRef .tc main_arg4) = W2 m ρ c (Proc.devRef .tc main_arg4) := by
  rw [W4_of_ne m ρ c main_arg4 (by decide)]
  dsimp only [W3, hostOps1]
  after_results_simp
theorem live4_arg4 : W4 m ρ c (Proc.devRef .tc main_arg4) = (m ((c : Thread nD τ).loc main_arg4)) :=
  (keep4_arg4 m ρ c).trans ((W2_of_ne m ρ c main_arg4 (by decide)).trans (entry_arg4 m ρ c))

theorem keep6_arg4 : W6 m ρ c (Proc.devRef .tc main_arg4) = W2 m ρ c (Proc.devRef .tc main_arg4) := by
  rw [W6_of_ne m ρ c main_arg4 (by decide)]
  dsimp only [W5, hostOps2]
  after_results_simp
  rw [W4_of_ne m ρ c main_arg4 (by decide)]
  dsimp only [W3, hostOps1]
  after_results_simp
theorem live6_arg4 : W6 m ρ c (Proc.devRef .tc main_arg4) = (m ((c : Thread nD τ).loc main_arg4)) :=
  (keep6_arg4 m ρ c).trans ((W2_of_ne m ρ c main_arg4 (by decide)).trans (entry_arg4 m ρ c))

theorem keep9_arg5 : W9 m ρ c (Proc.devRef .tc main_arg5) = W2 m ρ c (Proc.devRef .tc main_arg5) := by
  dsimp only [W9, hostOps4]
  after_results_simp
  rw [W8_of_ne m ρ c main_arg5 (by decide)]
  dsimp only [W7, hostOps3]
  after_results_simp
  rw [W6_of_ne m ρ c main_arg5 (by decide)]
  dsimp only [W5, hostOps2]
  after_results_simp
  rw [W4_of_ne m ρ c main_arg5 (by decide)]
  dsimp only [W3, hostOps1]
  after_results_simp
theorem live9_arg5 : W9 m ρ c (Proc.devRef .tc main_arg5) = (m ((c : Thread nD τ).loc main_arg5)) :=
  (keep9_arg5 m ρ c).trans ((W2_of_ne m ρ c main_arg5 (by decide)).trans (entry_arg5 m ρ c))

theorem keep10_arg2 : W10 m ρ c (Proc.devRef .tc main_arg2) = W2 m ρ c (Proc.devRef .tc main_arg2) := by
  rw [W10_of_ne m ρ c main_arg2 (by decide)]
  dsimp only [W9, hostOps4]
  after_results_simp
  rw [W8_of_ne m ρ c main_arg2 (by decide)]
  dsimp only [W7, hostOps3]
  after_results_simp
  rw [W6_of_ne m ρ c main_arg2 (by decide)]
  dsimp only [W5, hostOps2]
  after_results_simp
  rw [W4_of_ne m ρ c main_arg2 (by decide)]
  dsimp only [W3, hostOps1]
  after_results_simp
theorem live10_arg2 : W10 m ρ c (Proc.devRef .tc main_arg2) = (m ((c : Thread nD τ).loc main_arg2)) :=
  (keep10_arg2 m ρ c).trans ((W2_of_ne m ρ c main_arg2 (by decide)).trans (entry_arg2 m ρ c))

theorem keep10_arg6 : W10 m ρ c (Proc.devRef .tc main_arg6) = W2 m ρ c (Proc.devRef .tc main_arg6) := by
  rw [W10_of_ne m ρ c main_arg6 (by decide)]
  dsimp only [W9, hostOps4]
  after_results_simp
  rw [W8_of_ne m ρ c main_arg6 (by decide)]
  dsimp only [W7, hostOps3]
  after_results_simp
  rw [W6_of_ne m ρ c main_arg6 (by decide)]
  dsimp only [W5, hostOps2]
  after_results_simp
  rw [W4_of_ne m ρ c main_arg6 (by decide)]
  dsimp only [W3, hostOps1]
  after_results_simp
theorem live10_arg6 : W10 m ρ c (Proc.devRef .tc main_arg6) = (m ((c : Thread nD τ).loc main_arg6)) :=
  (keep10_arg6 m ρ c).trans ((W2_of_ne m ρ c main_arg6 (by decide)).trans (entry_arg6 m ρ c))

theorem keep10_arg7 : W10 m ρ c (Proc.devRef .tc main_arg7) = W2 m ρ c (Proc.devRef .tc main_arg7) := by
  rw [W10_of_ne m ρ c main_arg7 (by decide)]
  dsimp only [W9, hostOps4]
  after_results_simp
  rw [W8_of_ne m ρ c main_arg7 (by decide)]
  dsimp only [W7, hostOps3]
  after_results_simp
  rw [W6_of_ne m ρ c main_arg7 (by decide)]
  dsimp only [W5, hostOps2]
  after_results_simp
  rw [W4_of_ne m ρ c main_arg7 (by decide)]
  dsimp only [W3, hostOps1]
  after_results_simp
theorem live10_arg7 : W10 m ρ c (Proc.devRef .tc main_arg7) = (m ((c : Thread nD τ).loc main_arg7)) :=
  (keep10_arg7 m ρ c).trans ((W2_of_ne m ρ c main_arg7 (by decide)).trans (entry_arg7 m ρ c))

/-! ## The activations, boundary by boundary -/

/-- After the embedding region. -/
theorem embedded : W2 m ρ c (Proc.devRef .tc main_v29) = Cert.ReferenceIdeal.Read.val_main_v15 (F := Ideal) (m ((c : Thread nD τ).loc main_arg0)) (m ((c : Thread nD τ).loc main_arg3)) :=
  (W2_arr m ρ c 2).trans ((EmbedRegion.array_eq (V1 m ρ) c).trans (by
    show rowsDot16 (W1 m ρ c (Proc.devRef .tc main_arg0)) (W1 m ρ c (Proc.devRef .tc main_arg3)) = _
    rw [entry_arg0, entry_arg3]
    exact (Cert.ReferenceIdeal.Stages.embed_eq _ _).symm))

theorem embedded' : W3 m ρ c (Proc.devRef .tc main_v29) = Cert.ReferenceIdeal.Read.val_main_v15 (F := Ideal) (m ((c : Thread nD τ).loc main_arg0)) (m ((c : Thread nD τ).loc main_arg3)) := by
  dsimp only [W3, hostOps1]
  after_results_simp
  exact embedded m ρ c

/-- The first layer's weight. -/
theorem weight1 : W3 m ρ c (Proc.devRef .tc main_v31) = Cert.ReferenceIdeal.Read.val_main_v17 (F := Ideal) (m ((c : Thread nD τ).loc main_arg4)) := by
  dsimp only [W3, hostOps1]
  after_results_simp
  rw [live2_arg4]
  rfl

/-- After the first layer's weight product. -/
theorem product1 : W4 m ρ c (Proc.devRef .tc main_v32) = Cert.ReferenceIdeal.Read.val_main_v19 (F := Ideal) (m ((c : Thread nD τ).loc main_arg0)) (m ((c : Thread nD τ).loc main_arg3)) (m ((c : Thread nD τ).loc main_arg4)) :=
  (W4_arr m ρ c 2).trans ((Conv1Region.array_eq (V3 m ρ) c).trans (by
    show rowsDot128 (W3 m ρ c (Proc.devRef .tc main_v29)) (W3 m ρ c (Proc.devRef .tc main_v31)) = _
    rw [embedded', weight1]
    exact (Cert.ReferenceIdeal.Stages.conv1_eq _ _ _).symm))

/-- After the first aggregation over the edges (before the rectifier). -/
theorem aggregated1 : W5 m ρ c (Proc.devRef .tc main_v45) = Cert.ReferenceIdeal.Read.val_main_v47 (F := Ideal) (m ((c : Thread nD τ).loc main_arg0)) (m ((c : Thread nD τ).loc main_arg1)) (m ((c : Thread nD τ).loc main_arg3)) (m ((c : Thread nD τ).loc main_arg4)) := by
  dsimp only [W5, hostOps2]
  after_results_simp
  rw [product1, live4_v5, live4_v6, live4_v28]
  rfl

/-- The second layer's weight. -/
theorem weight2 : W5 m ρ c (Proc.devRef .tc main_v47) = Cert.ReferenceIdeal.Read.val_main_v50 (F := Ideal) (m ((c : Thread nD τ).loc main_arg4)) := by
  dsimp only [W5, hostOps2]
  after_results_simp
  rw [live4_arg4]
  rfl

/-- After the second layer's weight product. -/
theorem product2 : W6 m ρ c (Proc.devRef .tc main_v48) = Cert.ReferenceIdeal.Read.val_main_v52 (F := Ideal) (m ((c : Thread nD τ).loc main_arg0)) (m ((c : Thread nD τ).loc main_arg1)) (m ((c : Thread nD τ).loc main_arg3)) (m ((c : Thread nD τ).loc main_arg4)) :=
  (W6_arr m ρ c 2).trans ((Conv2Region.array_eq (V5 m ρ) c).trans (by
    show rowsDot128 (relu (W5 m ρ c (Proc.devRef .tc main_v45))) (W5 m ρ c (Proc.devRef .tc main_v47)) = _
    rw [aggregated1, weight2]
    exact (Cert.ReferenceIdeal.Stages.conv2_eq _ _ _ _).symm))

/-- After the second aggregation. -/
theorem aggregated2 : W7 m ρ c (Proc.devRef .tc main_v61) = Cert.ReferenceIdeal.Read.val_main_v80 (F := Ideal) (m ((c : Thread nD τ).loc main_arg0)) (m ((c : Thread nD τ).loc main_arg1)) (m ((c : Thread nD τ).loc main_arg3)) (m ((c : Thread nD τ).loc main_arg4)) := by
  dsimp only [W7, hostOps3]
  after_results_simp
  rw [product2, live6_v5, live6_v6, live6_v28]
  rfl

/-- The third layer's weight. -/
theorem weight3 : W7 m ρ c (Proc.devRef .tc main_v63) = Cert.ReferenceIdeal.Read.val_main_v83 (F := Ideal) (m ((c : Thread nD τ).loc main_arg4)) := by
  dsimp only [W7, hostOps3]
  after_results_simp
  rw [live6_arg4]
  rfl

/-- After the third layer's weight product. -/
theorem product3 : W8 m ρ c (Proc.devRef .tc main_v64) = Cert.ReferenceIdeal.Read.val_main_v85 (F := Ideal) (m ((c : Thread nD τ).loc main_arg0)) (m ((c : Thread nD τ).loc main_arg1)) (m ((c : Thread nD τ).loc main_arg3)) (m ((c : Thread nD τ).loc main_arg4)) :=
  (W8_arr m ρ c 2).trans ((Conv3Region.array_eq (V7 m ρ) c).trans (by
    show rowsDot128 (relu (W7 m ρ c (Proc.devRef .tc main_v61))) (W7 m ρ c (Proc.devRef .tc main_v63)) = _
    rw [aggregated2, weight3]
    exact (Cert.ReferenceIdeal.Stages.conv3_eq _ _ _ _).symm))

/-- After the third aggregation. -/
theorem aggregated3 : W9 m ρ c (Proc.devRef .tc main_v77) = Cert.ReferenceIdeal.Read.val_main_v113 (F := Ideal) (m ((c : Thread nD τ).loc main_arg0)) (m ((c : Thread nD τ).loc main_arg1)) (m ((c : Thread nD τ).loc main_arg3)) (m ((c : Thread nD τ).loc main_arg4)) := by
  dsimp only [W9, hostOps4]
  after_results_simp
  rw [product3, live8_v5, live8_v6, live8_v28]
  rfl

/-- After the centroid region. -/
theorem distances : W10 m ρ c (Proc.devRef .tc main_v78) = Cert.ReferenceIdeal.Read.val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W10_arr m ρ c 2).trans ((CentroidRegion.array_eq (V9 m ρ) c).trans (by
    show centroidDist (relu (W9 m ρ c (Proc.devRef .tc main_v77))) (W9 m ρ c (Proc.devRef .tc main_arg5)) = _
    rw [aggregated3, live9_arg5]
    exact (Cert.ReferenceIdeal.Stages.dist_eq _ _ _ _ _).symm))

/-- The result: the mean pool over the graphs and the classifier head applied to the distances. -/
theorem result : W11 m ρ c (Proc.devRef .tc main_v95) = Cert.ReferenceIdeal.Read.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [W11, hostOps5]
  after_results_simp
  rw [distances, live10_arg2, live10_arg6, live10_arg7]
  rfl

end Cert.KernelIdeal.Fold

end
-- ==== Proof.lean ====
/-
  A graph-classification network — an embedding of the node features, three graph-convolution layers (a weight
  product, then a degree-normalised sum over the edges with self loops), a rectifier after each layer, Euclidean
  distances to a set of centroids, a mean pool over the graphs and a linear head — computed two ways.

  The kernel runs the dense stages as five tiled regions (the embedding, the three weight products, the centroid
  distances), each over ten blocks of 10000 node rows, with the edge gathers, the scatter-adds, the pool and the head as
  host operations between them; it applies each rectifier on the READ side of the next dense stage.  The reference is
  host operations only and applies each rectifier right after the aggregation.  On the extended reals a change of float
  format is the identity and a block product into a zero accumulator is the plain sum, so:

  * a region's ten written-back blocks are the ten row blocks of one whole-array function of the arrays it read — rows
    against rows of the (transposed) weight, after the rectifier where the body has one — because an output row depends
    only on the same input row; the blocks cover the array;
  * the reference's matrix product of rectified activations is that same function, the rectifier being pointwise, so
    rectifying on the read and rectifying after the aggregation agree;
  * the centroid stage is on both sides √(max(‖a‖² + ‖b‖² − 2⟨a, b⟩, 0) + ε) with the same sums (the reference's sums
    start from a zero initial value, which drops out);
  * every host operation between the dense stages is the same operation on both sides (the kernel computes the edge
    coefficients once where the reference recomputes them per layer: the same term).

  No law of arithmetic beyond 0 + x = x is used, so the precondition (finite inputs) is never opened.  The kernel's run
  is the launch over its eleven segments, read at the result buffer; the reference's run and its stage functions are the
  generated modules'.
-/
import proofs.«116298_j31293131719247_1_alg».proof.Defs
import proofs.«116298_j31293131719247_1_alg».proof.Proof.Gen.Kernel
import proofs.«116298_j31293131719247_1_alg».proof.Proof.Gen.Kernel.Frame
import proofs.«116298_j31293131719247_1_alg».proof.Proof.Gen.KernelIdeal
import proofs.«116298_j31293131719247_1_alg».proof.Proof.Gen.KernelIdeal.Frame
import proofs.«116298_j31293131719247_1_alg».proof.Proof.Gen.ReferenceIdeal
import proofs.«116298_j31293131719247_1_alg».proof.Proof.Gen.Pre_finite_inputs
import proofs.«116298_j31293131719247_1_alg».proof.Proof.Gen.ReferenceIdeal.Run
import proofs.«116298_j31293131719247_1_alg».proof.Proof.Gen.ReferenceIdeal.Read
import proofs.«116298_j31293131719247_1_alg».proof.Proof.ResultRun
import proofs.«116298_j31293131719247_1_alg».proof.Proof.Fold
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel :=
  fun m ρ _ => Cert.Kernel.Gen.frame m ρ

/-- The idealized kernel runs and leaves its arguments as launched. -/
theorem frame_kernelIdeal : Cert.frame_KernelIdeal :=
  fun m ρ _ => Cert.KernelIdeal.Gen.frame m ρ

/-- The reference runs and leaves its arguments as launched: its run, the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From memories agreeing on the arguments both programs end with the same result: the reference's function of the
    arguments, which the kernel's last boundary holds at the result buffer and the reference's run ends at. -/
theorem algebraic :
    Cert.algebraic_KernelIdeal_ReferenceIdeal := by
  intro m ρ m' ρ' _ hagree
  refine ⟨fun c => Cert.ReferenceIdeal.Read.val_main_v150 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Fold.result m ρ c), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v150_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
